-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4x2048x4096 .f32) (main_arg1 : FVec F S11008x4096 .f32) (main_arg2 : FVec F S1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S1 : Shape := ⟨1, ![1]⟩
abbrev S8192x4096 : Shape := ⟨2, ![8192, 4096]⟩
abbrev S_ : Shape := ⟨0, ![]⟩
abbrev S11008 : Shape := ⟨1, ![11008]⟩
abbrev S11264 : Shape := ⟨1, ![11264]⟩
abbrev S11264x4096 : Shape := ⟨2, ![11264, 4096]⟩
abbrev S11264x1 : Shape := ⟨2, ![11264, 1]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩
abbrev S1x11264 : Shape := ⟨2, ![1, 11264]⟩
abbrev S8192x11264 : Shape := ⟨2, ![8192, 11264]⟩
abbrev S2048x1024 : Shape := ⟨2, ![2048, 1024]⟩
abbrev S512x1024 : Shape := ⟨2, ![512, 1024]⟩
abbrev S2048x1 : Shape := ⟨2, ![2048, 1]⟩
abbrev S1x512 : Shape := ⟨2, ![1, 512]⟩
abbrev S2048x512 : Shape := ⟨2, ![2048, 512]⟩
abbrev S8192x11008 : Shape := ⟨2, ![8192, 11008]⟩
abbrev S4x2048x11008 : Shape := ⟨3, ![4, 2048, 11008]⟩

abbrev nBuf : Space → Nat
  | .hbm => 62
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S1, .f32⟩
  | .hbm, ⟨3, _⟩ => ⟨S8192x4096, .f32⟩
  | .hbm, ⟨4, _⟩ => ⟨S_, .f32⟩
  | .hbm, ⟨5, _⟩ => ⟨S11008x4096, .f32⟩
  | .hbm, ⟨6, _⟩ => ⟨S_, .f32⟩
  | .hbm, ⟨7, _⟩ => ⟨S11008, .f32⟩
  | .hbm, ⟨8, _⟩ => ⟨S_, .f32⟩
  | .hbm, ⟨9, _⟩ => ⟨S11008, .f32⟩
  | .hbm, ⟨10, _⟩ => ⟨S11008, .f32⟩
  | .hbm, ⟨11, _⟩ => ⟨S_, .f32⟩
  | .hbm, ⟨12, _⟩ => ⟨S_, .f32⟩
  | .hbm, ⟨13, _⟩ => ⟨S11264, .f32⟩
  | .hbm, ⟨14, _⟩ => ⟨S_, .i32⟩
  | .hbm, ⟨15, _⟩ => ⟨S_, .f32⟩
  | .hbm, ⟨16, _⟩ => ⟨S11264x4096, .f32⟩
  | .hbm, ⟨17, _⟩ => ⟨S11264x1, .f32⟩
  | .hbm, ⟨18, _⟩ => ⟨S11264x4096, .f32⟩
  | .hbm, ⟨19, _⟩ => ⟨S11264x4096, .f32⟩
  | .hbm, ⟨20, _⟩ => ⟨S11264x4096, .f32⟩
  | .hbm, ⟨21, _⟩ => ⟨S8192x4096, .f32⟩
  | .hbm, ⟨22, _⟩ => ⟨S8192x4096, .f32⟩
  | .hbm, ⟨23, _⟩ => ⟨S8192x4096, .i1⟩
  | .hbm, ⟨24, _⟩ => ⟨S_, .i1⟩
  | .hbm, ⟨25, _⟩ => ⟨S4096, .i1⟩
  | .hbm, ⟨26, _⟩ => ⟨S1x4096, .i1⟩
  | .hbm, ⟨27, _⟩ => ⟨S_, .f32⟩
  | .hbm, ⟨28, _⟩ => ⟨S_, .f32⟩
  | .hbm, ⟨29, _⟩ => ⟨S8192x4096, .i1⟩
  | .hbm, ⟨30, _⟩ => ⟨S8192x4096, .f32⟩
  | .hbm, ⟨31, _⟩ => ⟨S8192x4096, .f32⟩
  | .hbm, ⟨32, _⟩ => ⟨S1x4096, .i1⟩
  | .hbm, ⟨33, _⟩ => ⟨S_, .f32⟩
  | .hbm, ⟨34, _⟩ => ⟨S_, .f32⟩
  | .hbm, ⟨35, _⟩ => ⟨S8192x4096, .i1⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .bf16⟩
  | .hbm, ⟨56, _⟩ => ⟨S11264x4096, .bf16⟩
  | .hbm, ⟨57, _⟩ => ⟨S8192x1, .f32⟩
  | .hbm, ⟨58, _⟩ => ⟨S1x11264, .f32⟩
  | .hbm, ⟨59, _⟩ => ⟨S8192x11264, .f32⟩
  | .hbm, ⟨60, _⟩ => ⟨S8192x11008, .f32⟩
  | .hbm, ⟨61, _⟩ => ⟨S4x2048x11008, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_v6 : Ref sig .tc := ⟨.hbm, 13, rfl⟩
abbrev main_c : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call3_v0 : Ref sig .tc := ⟨.hbm, 28, rfl⟩
abbrev main_call3_v1 : Ref sig .tc := ⟨.hbm, 29, rfl⟩
abbrev main_call3_v2 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call4_v0 : Ref sig .tc := ⟨.hbm, 34, rfl⟩
abbrev main_call4_v1 : Ref sig .tc := ⟨.hbm, 35, rfl⟩
abbrev main_call4_v2 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 22, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S1_S_ : S1.ShapeCasts S_
  reducesTo_S11008x4096_S11008_d1 : S11008x4096.ReducesTo [1] S11008
  h_S_ : 0 < S_.numel
  bcast_S_S11008 : S_.BroadcastsInDim S11008 (![] : Fin 0 → Fin S11008.rank)
  pads_S11008_S11264_02560 : S11008.Pads (![0] : Fin 1 → Nat) ![256] ![0] S11264
  pads_S11008x4096_S11264x4096_02560_000 : S11008x4096.Pads (![0, 0] : Fin 2 → Nat) ![256, 0] ![0, 0] S11264x4096
  bcast_S11264_S11264x1_0 : S11264.BroadcastsInDim S11264x1 (![0] : Fin 1 → Fin S11264x1.rank)
  bcast_S11264x1_S11264x4096_0_1 : S11264x1.BroadcastsInDim S11264x4096 (![0, 1] : Fin 2 → Fin S11264x4096.rank)
  bcast_S_S8192x4096 : S_.BroadcastsInDim S8192x4096 (![] : Fin 0 → Fin S8192x4096.rank)
  reducesTo_S8192x4096_S4096_d0 : S8192x4096.ReducesTo [0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bitsLt_bf16_f32 : FTy.bits .bf16 < FTy.bits .f32
  shapeCasts_S8192_S8192x1 : S8192.ShapeCasts S8192x1
  shapeCasts_S11264_S1x11264 : S11264.ShapeCasts S1x11264
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S8192x11264_S8192x11008_0_0 : S8192x11264.Slices ![0, 0] S8192x11008
  shapeCasts_S8192x11008_S4x2048x11008 : S8192x11008.ShapeCasts S4x2048x11008
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S11264x4096.size a
  hwx0_1 : ∀ i : grid0.Coords, EltTy.bits .bf16 = 32 ∨ (Rect.block (s := S11264x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x11264.size a
  hwx0_3 : ∀ i : grid0.Coords, EltTy.bits .f32 = 32 ∨ (Rect.block (s := S1x11264) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x11264.size a
  hwx0_4 : ∀ i : grid0.Coords, EltTy.bits .f32 = 32 ∨ (Rect.block (s := S8192x11264) S2048x512.size (cc0_transform_4 i) (hinb0_4 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v34) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S1 : Shape := ⟨1, ![1]⟩
abbrev S8192x4096 : Shape := ⟨2, ![8192, 4096]⟩
abbrev S_ : Shape := ⟨0, ![]⟩
abbrev S11008 : Shape := ⟨1, ![11008]⟩
abbrev S11008x1 : Shape := ⟨2, ![11008, 1]⟩
abbrev S4096 : Shape := ⟨1, ![4096]⟩
abbrev S1x4096 : Shape := ⟨2, ![1, 4096]⟩
abbrev S4096x11008 : Shape := ⟨2, ![4096, 11008]⟩
abbrev S8192x11008 : Shape := ⟨2, ![8192, 11008]⟩
abbrev S8192 : Shape := ⟨1, ![8192]⟩
abbrev S8192x1 : Shape := ⟨2, ![8192, 1]⟩
abbrev S1x11008 : Shape := ⟨2, ![1, 11008]⟩
abbrev S4x2048x11008 : Shape := ⟨3, ![4, 2048, 11008]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S1, .f32⟩
  | .hbm, ⟨3, _⟩ => ⟨S8192x4096, .f32⟩
  | .hbm, ⟨4, _⟩ => ⟨S_, .f32⟩
  | .hbm, ⟨5, _⟩ => ⟨S11008x4096, .f32⟩
  | .hbm, ⟨6, _⟩ => ⟨S_, .f32⟩
  | .hbm, ⟨7, _⟩ => ⟨S11008, .f32⟩
  | .hbm, ⟨8, _⟩ => ⟨S_, .f32⟩
  | .hbm, ⟨9, _⟩ => ⟨S11008, .f32⟩
  | .hbm, ⟨10, _⟩ => ⟨S11008, .f32⟩
  | .hbm, ⟨11, _⟩ => ⟨S11008x1, .f32⟩
  | .hbm, ⟨12, _⟩ => ⟨S11008x4096, .f32⟩
  | .hbm, ⟨13, _⟩ => ⟨S11008x4096, .f32⟩
  | .hbm, ⟨14, _⟩ => ⟨S11008x4096, .f32⟩
  | .hbm, ⟨15, _⟩ => ⟨S8192x4096, .f32⟩
  | .hbm, ⟨16, _⟩ => ⟨S8192x4096, .f32⟩
  | .hbm, ⟨17, _⟩ => ⟨S8192x4096, .i1⟩
  | .hbm, ⟨18, _⟩ => ⟨S_, .i1⟩
  | .hbm, ⟨19, _⟩ => ⟨S4096, .i1⟩
  | .hbm, ⟨20, _⟩ => ⟨S1x4096, .i1⟩
  | .hbm, ⟨21, _⟩ => ⟨S_, .f32⟩
  | .hbm, ⟨22, _⟩ => ⟨S_, .f32⟩
  | .hbm, ⟨23, _⟩ => ⟨S8192x4096, .i1⟩
  | .hbm, ⟨24, _⟩ => ⟨S8192x4096, .f32⟩
  | .hbm, ⟨25, _⟩ => ⟨S8192x4096, .f32⟩
  | .hbm, ⟨26, _⟩ => ⟨S1x4096, .i1⟩
  | .hbm, ⟨27, _⟩ => ⟨S_, .f32⟩
  | .hbm, ⟨28, _⟩ => ⟨S_, .f32⟩
  | .hbm, ⟨29, _⟩ => ⟨S8192x4096, .i1⟩
  | .hbm, ⟨30, _⟩ => ⟨S8192x4096, .f32⟩
  | .hbm, ⟨31, _⟩ => ⟨S8192x4096, .f32⟩
  | .hbm, ⟨32, _⟩ => ⟨S11008x1, .f32⟩
  | .hbm, ⟨33, _⟩ => ⟨S11008x4096, .f32⟩
  | .hbm, ⟨34, _⟩ => ⟨S11008x4096, .f32⟩
  | .hbm, ⟨35, _⟩ => ⟨S1x4096, .i1⟩
  | .hbm, ⟨36, _⟩ => ⟨S1x4096, .f32⟩
  | .hbm, ⟨37, _⟩ => ⟨S11008x4096, .f32⟩
  | .hbm, ⟨38, _⟩ => ⟨S11008x4096, .f32⟩
  | .hbm, ⟨39, _⟩ => ⟨S1x4096, .i1⟩
  | .hbm, ⟨40, _⟩ => ⟨S_, .f32⟩
  | .hbm, ⟨41, _⟩ => ⟨S_, .f32⟩
  | .hbm, ⟨42, _⟩ => ⟨S11008x4096, .i1⟩
  | .hbm, ⟨43, _⟩ => ⟨S11008x4096, .f32⟩
  | .hbm, ⟨44, _⟩ => ⟨S11008x4096, .f32⟩
  | .hbm, ⟨45, _⟩ => ⟨S4096x11008, .f32⟩
  | .hbm, ⟨46, _⟩ => ⟨S8192x11008, .f32⟩
  | .hbm, ⟨47, _⟩ => ⟨S8192x4096, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x1, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S4096x11008, .f32⟩
  | .hbm, ⟨61, _⟩ => ⟨S8192x11008, .f32⟩
  | .hbm, ⟨62, _⟩ => ⟨S8192x1, .f32⟩
  | .hbm, ⟨63, _⟩ => ⟨S8192x11008, .f32⟩
  | .hbm, ⟨64, _⟩ => ⟨S8192x11008, .f32⟩
  | .hbm, ⟨65, _⟩ => ⟨S1x11008, .f32⟩
  | .hbm, ⟨66, _⟩ => ⟨S8192x11008, .f32⟩
  | .hbm, ⟨67, _⟩ => ⟨S8192x11008, .f32⟩
  | .hbm, ⟨68, _⟩ => ⟨S8192x11008, .f32⟩
  | .hbm, ⟨69, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S1_S_ : S1.ShapeCasts S_
  reducesTo_S11008x4096_S11008_d1 : S11008x4096.ReducesTo [1] S11008
  h_S_ : 0 < S_.numel
  bcast_S_S11008 : S_.BroadcastsInDim S11008 (![] : Fin 0 → Fin S11008.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S8192x4096 : S_.BroadcastsInDim S8192x4096 (![] : Fin 0 → Fin S8192x4096.rank)
  reducesTo_S8192x4096_S4096_d0 : S8192x4096.ReducesTo [0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S1x4096_S11008x4096_0_1 : S1x4096.BroadcastsInDim S11008x4096 (![0, 1] : Fin 2 → Fin S11008x4096.rank)
  bcast_S_S11008x4096 : S_.BroadcastsInDim S11008x4096 (![] : Fin 0 → Fin S11008x4096.rank)
  transposes_S11008x4096_S4096x11008_1_0 : S11008x4096.Transposes [1, 0] S4096x11008
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S8192x1_S8192x11008_0_1 : S8192x1.BroadcastsInDim S8192x11008 (![0, 1] : Fin 2 → Fin S8192x11008.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S4x2048x11008 : S8192x11008.ShapeCasts S4x2048x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.KerRun.Pieces.lean ====
/-
  What each control case of the kernel body leaves behind, as a value. The body keeps a 2048 × 512 accumulator in a
  scratch buffer that survives from one grid point to the next. At the first step of a reduction (k = 0) it stores
  the zero block and then adds the product of the two operand blocks; at the middle steps (k = 1, 2) it adds the
  product to what the previous point left; at the last step (k = 3) it adds the product and then writes the output
  block: the accumulator scaled row by row and column by column. Each statement reads the stores the body's run found
  back as one payload term of the blocks loaded.
-/
import proofs.«119141_j49220325212290_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KerRun

open Cert.KernelIdeal Cert.KernelIdeal.Gen

variable {F : FTy → Type} [FloatOps F]

/-- The zero offsets of a whole-buffer load or store, as the constant function. -/
theorem hz : (![0, 0] : Fin 2 → Nat) = fun _ => 0 := funext fun a => by fin_cases a <;> rfl

/-- First step of a reduction: the accumulator is zeroed, read back, and the product of the operand blocks added. -/
theorem acc_first (c : Dev nD) (i : grid0.Coords) (a3 : Memref sig .tc .vmem S2048x1024 .bf16) (h3 : a3.IsWhole)
    (a4 : Memref sig .tc .vmem S512x1024 .bf16) (h4 : a4.IsWhole) (a5 : Memref sig .tc .vmem S2048x1 .f32) (h5 : a5.IsWhole)
    (a6 : Memref sig .tc .vmem S1x512 .f32) (h6 : a6.IsWhole) (a7 : Memref sig .tc .vmem S2048x512 .f32) (h7 : a7.IsWhole)
    (a8 : Memref sig .tc .vmem S2048x512 .f32) (h8 : a8.IsWhole) (hc0 : cond0_0 i) (hc1 : ¬cond0_1 i)
    (x0 : Vec F S2048x1024 .bf16) (x1 : Vec F S512x1024 .bf16) (x2 : Vec F S2048x1 .f32) (x3 : Vec F S1x512 .f32) :
    sout0_A_0 c i a3 h3 a4 h4 a5 h5 a6 h6 a7 h7 a8 h8 hc0 hc1 x0 x1 x2 x3 = k0_pay2 (k0_pay1 (F := F)) x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, h3.read_unread, h4.read_unread, View.ld_unit_zero (S := S2048x1024) hz,
    View.ld_unit_zero (S := S512x1024) hz]

/-- A middle step: the product of the operand blocks is added to what the point before left (`acc`). -/
theorem acc_middle (c : Dev nD) (i : grid0.Coords) (a3 : Memref sig .tc .vmem S2048x1024 .bf16) (h3 : a3.IsWhole)
    (a4 : Memref sig .tc .vmem S512x1024 .bf16) (h4 : a4.IsWhole) (a5 : Memref sig .tc .vmem S2048x1 .f32) (h5 : a5.IsWhole)
    (a6 : Memref sig .tc .vmem S1x512 .f32) (h6 : a6.IsWhole) (a7 : Memref sig .tc .vmem S2048x512 .f32) (h7 : a7.IsWhole)
    (a8 : Memref sig .tc .vmem S2048x512 .f32) (h8 : a8.IsWhole) (hc0 : ¬cond0_0 i) (hc1 : ¬cond0_1 i)
    (x0 : Vec F S2048x1024 .bf16) (x1 : Vec F S512x1024 .bf16) (x2 : Vec F S2048x1 .f32) (x3 : Vec F S1x512 .f32)
    (acc : Vec F S2048x512 .f32) :
    sout0_B_0 c i a3 h3 a4 h4 a5 h5 a6 h6 a7 h7 a8 h8 hc0 hc1 x0 x1 x2 x3 acc = k0_pay2 acc x0 x1 := by
  unfold sout0_B_0
  rw [View.read_writes_eq_canon _ _ _ (scover0_B_0 c i a3 h3 a4 h4 a5 h5 a6 h6 a7 h7 a8 h8 hc0 hc1 x0 x1 x2 x3 acc)]
  unfold kernelRun0_B
  dsimp only
  sl_unfold_words
  rw [View.canon_unit_zero (S := S2048x512) hz]
  simp only [View.readAt_eq_ld, h3.read_unread, h4.read_unread, h8.read_unread, View.ld_unit_zero (S := S2048x1024) hz,
    View.ld_unit_zero (S := S512x1024) hz, View.ld_unit_zero (S := S2048x512) hz]

/-- The last step leaves the same sum in the accumulator … -/
theorem acc_last (c : Dev nD) (i : grid0.Coords) (a3 : Memref sig .tc .vmem S2048x1024 .bf16) (h3 : a3.IsWhole)
    (a4 : Memref sig .tc .vmem S512x1024 .bf16) (h4 : a4.IsWhole) (a5 : Memref sig .tc .vmem S2048x1 .f32) (h5 : a5.IsWhole)
    (a6 : Memref sig .tc .vmem S1x512 .f32) (h6 : a6.IsWhole) (a7 : Memref sig .tc .vmem S2048x512 .f32) (h7 : a7.IsWhole)
    (a8 : Memref sig .tc .vmem S2048x512 .f32) (h8 : a8.IsWhole) (hc0 : ¬cond0_0 i) (hc1 : cond0_1 i)
    (x0 : Vec F S2048x1024 .bf16) (x1 : Vec F S512x1024 .bf16) (x2 : Vec F S2048x1 .f32) (x3 : Vec F S1x512 .f32)
    (acc : Vec F S2048x512 .f32) :
    sout0_C_0 c i a3 h3 a4 h4 a5 h5 a6 h6 a7 h7 a8 h8 hc0 hc1 x0 x1 x2 x3 acc = k0_pay2 acc x0 x1 := by
  unfold sout0_C_0
  rw [View.read_writes_eq_canon _ _ _ (scover0_C_0 c i a3 h3 a4 h4 a5 h5 a6 h6 a7 h7 a8 h8 hc0 hc1 x0 x1 x2 x3 acc)]
  unfold kernelRun0_C
  dsimp only
  sl_unfold_words
  rw [View.canon_unit_zero (S := S2048x512) hz]
  simp only [View.readAt_eq_ld, h3.read_unread, h4.read_unread, h8.read_unread, View.ld_unit_zero (S := S2048x1024) hz,
    View.ld_unit_zero (S := S512x1024) hz, View.ld_unit_zero (S := S2048x512) hz]

/-- … and writes the output block: that sum scaled by the row scales and by the column scales. -/
theorem out_last (c : Dev nD) (i : grid0.Coords) (a3 : Memref sig .tc .vmem S2048x1024 .bf16) (h3 : a3.IsWhole)
    (a4 : Memref sig .tc .vmem S512x1024 .bf16) (h4 : a4.IsWhole) (a5 : Memref sig .tc .vmem S2048x1 .f32) (h5 : a5.IsWhole)
    (a6 : Memref sig .tc .vmem S1x512 .f32) (h6 : a6.IsWhole) (a7 : Memref sig .tc .vmem S2048x512 .f32) (h7 : a7.IsWhole)
    (a8 : Memref sig .tc .vmem S2048x512 .f32) (h8 : a8.IsWhole) (hc0 : ¬cond0_0 i) (hc1 : cond0_1 i)
    (x0 : Vec F S2048x1024 .bf16) (x1 : Vec F S512x1024 .bf16) (x2 : Vec F S2048x1 .f32) (x3 : Vec F S1x512 .f32)
    (acc : Vec F S2048x512 .f32) :
    out0_C_4 c i a3 h3 a4 h4 a5 h5 a6 h6 a7 h7 a8 h8 hc0 hc1 x0 x1 x2 x3 acc = k0_pay3 (k0_pay2 acc x0 x1) x2 x3 := by
  unfold out0_C_4
  rw [View.read_writes_eq_canon _ _ _ (cover0_C_4 c i a3 h3 a4 h4 a5 h5 a6 h6 a7 h7 a8 h8 hc0 hc1 x0 x1 x2 x3 acc)]
  unfold kernelRun0_C
  dsimp only
  sl_unfold_words
  rw [View.canon_unit_zero (S := S2048x512) hz]
  simp only [View.readAt_eq_ld, h3.read_unread, h4.read_unread, h5.read_unread, h6.read_unread, h8.read_unread,
    View.ld_unit_zero (S := S2048x1024) hz, View.ld_unit_zero (S := S512x1024) hz, View.ld_unit_zero (S := S2048x512) hz,
    View.ld_unit_zero (S := S2048x1) hz, View.ld_unit_zero (S := S1x512) hz]
  rw [View.readCov_unit_zero (S := S2048x512) _ hz]

end Cert.KerRun

end
-- ==== Proof.KerRun.Acc.lean ====
/-
  The accumulator along one reduction. The grid's points come in runs of four consecutive points, one run per output
  tile: point 4p zeroes the accumulator and adds the first product, points 4p + 1 and 4p + 2 add the next two, point
  4p + 3 adds the last and writes the tile. So what the output's buffer holds after point n + 3, for n a multiple of
  four, is one closed term of the sixteen blocks the four points loaded: the scaling of the four-fold accumulation
  from zero.
-/
import proofs.«119141_j49220325212290_2_alg».proof.Proof.KerRun.Pieces

noncomputable section

open Idealize.ShloMosaic Idealize.ShloMosaic.TcCoe Idealize.SL.Sem
open Idealize.ShloMosaic.Pipeline (Dat)

namespace Cert.KerRun

open Cert.KernelIdeal Cert.KernelIdeal.Gen

variable {F : FTy → Type} [FloatOps F]
variable (m : (ℓ : Loc nD τ sig) → Buf (Elt F) ℓ)

/-- At the first point of a run the accumulator is the first product added to zero. -/
theorem scratch_reset (c : Dev nD) (n : ℕ) (h : n < cfg0.N) (h0 : n % 4 = 0) :
    (outsAt0 m c n h).2 = k0_pay2 (k0_pay1 (F := F)) (iblk m c 0 ⟨n, h⟩) (iblk m c 1 ⟨n, h⟩) := by
  have h1 : ¬n % 4 = 3 := by omega
  rw [outsAt0_A m c ⟨n, h⟩ h0 h1]
  dsimp only
  exact acc_first (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩) (iblk m c 3 ⟨n, h⟩)

/-- At every other point the point's product is added to what the point before left. -/
theorem scratch_step (c : Dev nD) (n : ℕ) (h : n + 1 < cfg0.N) (h0 : ¬(n + 1) % 4 = 0) :
    (outsAt0 m c (n + 1) h).2
      = k0_pay2 (outsAt0 m c n (Nat.lt_of_succ_lt h)).2 (iblk m c 0 ⟨n + 1, h⟩) (iblk m c 1 ⟨n + 1, h⟩) := by
  by_cases h1 : (n + 1) % 4 = 3
  · rw [outsAt0_C m c ⟨n + 1, h⟩ h0 h1]
    dsimp only
    exact acc_last (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (iblk m c 3 ⟨n + 1, h⟩) (outsAt0 m c n (Nat.lt_of_succ_lt h)).2
  · rw [outsAt0_B m c ⟨n + 1, h⟩ h0 h1]
    dsimp only
    exact acc_middle (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- At the last point of a run the output's buffer takes the accumulator, scaled by rows and by columns. -/
theorem out_flush (c : Dev nD) (n : ℕ) (h : n + 1 < cfg0.N) (h1 : (n + 1) % 4 = 3) :
    (outsAt0 m c (n + 1) h).1
      = k0_pay3 (k0_pay2 (outsAt0 m c n (Nat.lt_of_succ_lt h)).2 (iblk m c 0 ⟨n + 1, h⟩) (iblk m c 1 ⟨n + 1, h⟩))
          (iblk m c 2 ⟨n + 1, h⟩) (iblk m c 3 ⟨n + 1, h⟩) := by
  have h0 : ¬(n + 1) % 4 = 0 := by omega
  rw [outsAt0_C m c ⟨n + 1, h⟩ h0 h1]
  dsimp only
  exact out_last (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1)
    (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- THE TILE: what the output's buffer holds after the last point `n + 3` of the run that starts at `n`. -/
theorem tile_eq (c : Dev nD) (n : ℕ) (h : n + 3 < cfg0.N) (hn : n % 4 = 0) :
    (outsAt0 m c (n + 3) h).1
      = k0_pay3 (k0_pay2 (k0_pay2 (k0_pay2 (k0_pay2 (k0_pay1 (F := F))
            (iblk m c 0 ⟨n, Nat.lt_of_succ_lt (Nat.lt_of_succ_lt (Nat.lt_of_succ_lt h))⟩)
            (iblk m c 1 ⟨n, Nat.lt_of_succ_lt (Nat.lt_of_succ_lt (Nat.lt_of_succ_lt h))⟩))
            (iblk m c 0 ⟨n + 1, Nat.lt_of_succ_lt (Nat.lt_of_succ_lt h)⟩) (iblk m c 1 ⟨n + 1, Nat.lt_of_succ_lt (Nat.lt_of_succ_lt h)⟩))
            (iblk m c 0 ⟨n + 2, Nat.lt_of_succ_lt h⟩) (iblk m c 1 ⟨n + 2, Nat.lt_of_succ_lt h⟩))
            (iblk m c 0 ⟨n + 3, h⟩) (iblk m c 1 ⟨n + 3, h⟩))
          (iblk m c 2 ⟨n + 3, h⟩) (iblk m c 3 ⟨n + 3, h⟩) := by
  rw [out_flush m c (n + 2) h (by omega), scratch_step m c (n + 1) (Nat.lt_of_succ_lt h) (by omega),
    scratch_step m c n (Nat.lt_of_succ_lt (Nat.lt_of_succ_lt h)) (by omega),
    scratch_reset m c n (Nat.lt_of_succ_lt (Nat.lt_of_succ_lt (Nat.lt_of_succ_lt h))) hn]

end Cert.KerRun

end
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.KerRun.Payload.lean ====
/-
  The body's three payload terms read at one entry, over the extended reals. At entry (r, q) of a 2048 × 512 block:
  the zero block reads 0; the accumulation step reads the accumulator there plus the inner product, over the 1024
  columns of the two operand blocks, of row r of the left block with row q of the right block (the matrix unit
  contracts the second axis of both, into a zero accumulator, and nothing is rounded); the scaling step reads the
  accumulator there times the scale of row r times the scale of column q.
-/
import proofs.«119141_j49220325212290_2_alg».proof.Proof.Gen.KernelIdeal.Skeleton
import proofs.«119141_j49220325212290_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KerRun

open Cert.KernelIdeal Cert.KernelIdeal.Gen

/-! ## The payloads as terms, for any float instance: the identity shape casts dropped -/

section AnyInstance
variable {F : FTy → Type} [FloatOps F]

theorem pay1_eq : k0_pay1 (F := F) = broadcast S2048x512 (Scalar.ofBits .f32 0x00000000#32) := by
  unfold k0_pay1
  simp only [shapeCast_self]

theorem pay2_eq (acc : Vec F S2048x512 .f32) (x0 : Vec F S2048x1024 .bf16) (x1 : Vec F S512x1024 .bf16) :
    k0_pay2 acc x0 x1
      = addf acc (matmul dot_S2048x1024_S512x1024_S2048x512_1_1_0_0_n_n none x0 x1 (constant S2048x512 .f32 0x00000000#32)) := by
  unfold k0_pay2
  simp only [shapeCast_self]

theorem pay3_eq (acc : Vec F S2048x512 .f32) (x2 : Vec F S2048x1 .f32) (x3 : Vec F S1x512 .f32) :
    k0_pay3 acc x2 x3
      = mulf (mulf acc (broadcastTo S2048x512 x2 broadcasts_S2048x1_S2048x512)) (broadcastTo S2048x512 x3 broadcasts_S1x512_S2048x512) := by
  unfold k0_pay3
  simp only [shapeCast_self]

end AnyInstance

/-! ## The matrix unit's dimension numbers: which operand entries meet at an output entry -/

/-- The product's dimension numbers: both operands contract their second axis. -/
abbrev dotD : DotDims S2048x1024 S512x1024 S2048x512 := dot_S2048x1024_S512x1024_S2048x512_1_1_0_0_n_n

theorem lhs_row (j : S2048x512.Idx) (k : dotD.contr.Idx) : (dotD.lhsIdx j k 0).val = (j 0).val := by
  unfold DotDims.lhsIdx
  rw [dif_neg (show ¬(0 : Fin S2048x1024.rank) ∈ dotD.lhsBatch by decide), dif_pos (show (0 : Fin S2048x1024.rank) ∈ dotD.lhsNonContracting by decide)]
  rfl
theorem lhs_col (j : S2048x512.Idx) (k : dotD.contr.Idx) : (dotD.lhsIdx j k 1).val = (k ⟨0, by decide⟩).val :=
  dotD.lhsIdx_val_of_single rfl j k
theorem rhs_row (j : S2048x512.Idx) (k : dotD.contr.Idx) : (dotD.rhsIdx j k 0).val = (j 1).val := by
  unfold DotDims.rhsIdx
  rw [dif_neg (show ¬(0 : Fin S512x1024.rank) ∈ dotD.rhsBatch by decide), dif_pos (show (0 : Fin S512x1024.rank) ∈ dotD.rhsNonContracting by decide)]
  rfl
theorem rhs_col (j : S2048x512.Idx) (k : dotD.contr.Idx) : (dotD.rhsIdx j k 1).val = (k ⟨0, by decide⟩).val :=
  dotD.rhsIdx_val_of_single rfl j k

/-! ## The payloads at an entry, over the extended reals -/

/-- The product into a zero accumulator at entry (r, q): row r of the left block against row q of the right block. -/
theorem matmul_zero_apply (x0 : FVec Ideal S2048x1024 .bf16) (x1 : FVec Ideal S512x1024 .bf16) (r : Fin 2048) (q : Fin 512) :
    (matmul (F := Ideal) dotD none x0 x1 (constant S2048x512 .f32 0x00000000#32) (ix2 r q) : EReal)
      = ∑ k : Fin 1024, (x0 (ix2 r k) : EReal) * (x1 (ix2 q k) : EReal) := by
  refine (Ideal.matmul_constant_zero_apply dotD none x0 x1 (ix2 r q)).trans ?_
  rw [← Equiv.sum_comp (contrEquiv1 dotD 1024 rfl rfl).symm]
  refine Finset.sum_congr rfl fun k _ => ?_
  have hk := contrEquiv1_symm_val dotD 1024 rfl rfl k
  have el : dotD.lhsIdx (ix2 r q) ((contrEquiv1 dotD 1024 rfl rfl).symm k) = ix2 r k := funext fun a => Fin.ext (by
    match a with
    | ⟨0, _⟩ => exact lhs_row _ _
    | ⟨1, _⟩ => exact (lhs_col _ _).trans hk)
  have er : dotD.rhsIdx (ix2 r q) ((contrEquiv1 dotD 1024 rfl rfl).symm k) = ix2 q k := funext fun a => Fin.ext (by
    match a with
    | ⟨0, _⟩ => exact rhs_row _ _
    | ⟨1, _⟩ => exact (rhs_col _ _).trans hk)
  rw [el, er]

/-- The zero block reads 0. -/
theorem pay1_apply (r : Fin 2048) (q : Fin 512) : (k0_pay1 (F := Ideal) (ix2 r q) : EReal) = 0 := by
  rw [pay1_eq]
  exact Ideal.ofBits_zero_f32

/-- The accumulation step at entry (r, q). -/
theorem pay2_apply (acc : Vec Ideal S2048x512 .f32) (x0 : Vec Ideal S2048x1024 .bf16) (x1 : Vec Ideal S512x1024 .bf16)
    (r : Fin 2048) (q : Fin 512) :
    (k0_pay2 acc x0 x1 (ix2 r q) : EReal) = (acc (ix2 r q) : EReal) + ∑ k : Fin 1024, (x0 (ix2 r k) : EReal) * (x1 (ix2 q k) : EReal) := by
  rw [pay2_eq]
  exact congrArg ((acc (ix2 r q) : EReal) + ·) (matmul_zero_apply x0 x1 r q)

/-- The scaling step at entry (r, q). -/
theorem pay3_apply (acc : Vec Ideal S2048x512 .f32) (x2 : Vec Ideal S2048x1 .f32) (x3 : Vec Ideal S1x512 .f32)
    (r : Fin 2048) (q : Fin 512) :
    (k0_pay3 acc x2 x3 (ix2 r q) : EReal) = ((acc (ix2 r q) : EReal) * (x2 (ix2 r (0 : Fin 1)) : EReal)) * (x3 (ix2 (0 : Fin 1) q) : EReal) := by
  rw [pay3_eq]
  show ((acc (ix2 r q) : EReal) * (broadcastTo S2048x512 x2 broadcasts_S2048x1_S2048x512 (ix2 r q) : EReal))
      * (broadcastTo S2048x512 x3 broadcasts_S1x512_S2048x512 (ix2 r q) : EReal) = _
  rw [Cert.LibColumn.broadcastTo_a1_ab_apply (a := 2048) (b := 512) x2 broadcasts_S2048x1_S2048x512 r q,
    broadcastTo_1b_ab_apply (a := 2048) (b := 512) x3 broadcasts_S1x512_S2048x512 r q]

/-- One output tile at entry (r, q): from the zero block, four accumulation steps over the four column blocks of the
    operands, then the scaling. -/
theorem tile_apply (a0 a1 a2 a3 : Vec Ideal S2048x1024 .bf16) (b0 b1 b2 b3 : Vec Ideal S512x1024 .bf16)
    (x2 : Vec Ideal S2048x1 .f32) (x3 : Vec Ideal S1x512 .f32) (r : Fin 2048) (q : Fin 512) :
    (k0_pay3 (k0_pay2 (k0_pay2 (k0_pay2 (k0_pay2 (k0_pay1 (F := Ideal)) a0 b0) a1 b1) a2 b2) a3 b3) x2 x3 (ix2 r q) : EReal)
      = (((((∑ k : Fin 1024, (a0 (ix2 r k) : EReal) * (b0 (ix2 q k) : EReal))
            + ∑ k : Fin 1024, (a1 (ix2 r k) : EReal) * (b1 (ix2 q k) : EReal))
            + ∑ k : Fin 1024, (a2 (ix2 r k) : EReal) * (b2 (ix2 q k) : EReal))
            + ∑ k : Fin 1024, (a3 (ix2 r k) : EReal) * (b3 (ix2 q k) : EReal))
          * (x2 (ix2 r (0 : Fin 1)) : EReal)) * (x3 (ix2 (0 : Fin 1) q) : EReal) := by
  rw [pay3_apply, pay2_apply, pay2_apply, pay2_apply, pay2_apply, pay1_apply, zero_add]

end Cert.KerRun

end
-- ==== Proof.KerRun.Blocks.lean ====
/-
  Where each window's block sits in its array. The grid is 4 × 22 × 4; point t stands for row block i = t / 88,
  column block j = (t / 4) % 22 and reduction step k = t % 4. Entry (r, s) of the left operand's block at t is entry
  (2048 i + r, 1024 k + s) of the 8192 × 4096 array; entry (q, s) of the right operand's block is entry
  (512 j + q, 1024 k + s) of the 11264 × 4096 array; the row scales' block is rows 2048 i … of the 8192 × 1 column;
  the column scales' block is columns 512 j … of the 1 × 11264 row; the output block is the 2048 × 512 tile (i, j).
-/
import proofs.«119141_j49220325212290_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KerRun

open Cert.KernelIdeal Cert.KernelIdeal.Gen

variable {F : FTy → Type} [FloatOps F]
variable (m : (ℓ : Loc nD τ sig) → Buf (Elt F) ℓ)

/-- The printed index maps in closed form, decided once over the grid's 352 points. -/
theorem idx_facts : ∀ t : Fin cfg0.N,
    win0_0.index t (0 : Fin 2) = t.val / 88 ∧ win0_0.index t (1 : Fin 2) = t.val % 4
    ∧ win0_1.index t (0 : Fin 2) = t.val / 4 % 22 ∧ win0_1.index t (1 : Fin 2) = t.val % 4
    ∧ win0_2.index t (0 : Fin 2) = t.val / 88 ∧ win0_2.index t (1 : Fin 2) = 0
    ∧ win0_3.index t (0 : Fin 2) = 0 ∧ win0_3.index t (1 : Fin 2) = t.val / 4 % 22
    ∧ win0_4.index t (0 : Fin 2) = t.val / 88 ∧ win0_4.index t (1 : Fin 2) = t.val / 4 % 22 :=
  (by decide +kernel : ∀ t : Fin grid0.N, _)

/-- The left operand's block at point `t`, entry (r, s). -/
theorem blk0_apply (c : Dev nD) (t : Fin cfg0.N) (r : Fin 2048) (s : Fin 1024) (R : Fin 8192) (K : Fin 4096)
    (hR : R.val = 2048 * (t.val / 88) + r.val) (hK : K.val = 1024 * (t.val % 4) + s.val) :
    (iblk m c 0 t : Vec F S2048x1024 .bf16) (ix2 r s) = V m c main_v34 (ix2 R K) := by
  obtain ⟨e0, e1, -⟩ := idx_facts t
  unfold iblk
  rw [View.read_apply]
  show V m c main_v34 _ = V m c main_v34 _
  refine congrArg (V m c main_v34) (funext fun a => Fin.ext ?_)
  match a with
  | ⟨0, _⟩ => show win0_0.index t (0 : Fin 2) * 2048 + 1 * r.val = R.val; rw [e0, hR]; omega
  | ⟨1, _⟩ => show win0_0.index t (1 : Fin 2) * 1024 + 1 * s.val = K.val; rw [e1, hK]; omega

/-- The right operand's block at point `t`, entry (q, s). -/
theorem blk1_apply (c : Dev nD) (t : Fin cfg0.N) (q : Fin 512) (s : Fin 1024) (Nn : Fin 11264) (K : Fin 4096)
    (hN : Nn.val = 512 * (t.val / 4 % 22) + q.val) (hK : K.val = 1024 * (t.val % 4) + s.val) :
    (iblk m c 1 t : Vec F S512x1024 .bf16) (ix2 q s) = V m c main_v35 (ix2 Nn K) := by
  obtain ⟨-, -, e0, e1, -⟩ := idx_facts t
  unfold iblk
  rw [View.read_apply]
  show V m c main_v35 _ = V m c main_v35 _
  refine congrArg (V m c main_v35) (funext fun a => Fin.ext ?_)
  match a with
  | ⟨0, _⟩ => show win0_1.index t (0 : Fin 2) * 512 + 1 * q.val = Nn.val; rw [e0, hN]; omega
  | ⟨1, _⟩ => show win0_1.index t (1 : Fin 2) * 1024 + 1 * s.val = K.val; rw [e1, hK]; omega

/-- The row scales' block at point `t`, entry (r, 0). -/
theorem blk2_apply (c : Dev nD) (t : Fin cfg0.N) (r : Fin 2048) (R : Fin 8192)
    (hR : R.val = 2048 * (t.val / 88) + r.val) :
    (iblk m c 2 t : Vec F S2048x1 .f32) (ix2 r (0 : Fin 1)) = V m c main_v36 (ix2 R (0 : Fin 1)) := by
  obtain ⟨-, -, -, -, e0, e1, -⟩ := idx_facts t
  unfold iblk
  rw [View.read_apply]
  show V m c main_v36 _ = V m c main_v36 _
  refine congrArg (V m c main_v36) (funext fun a => Fin.ext ?_)
  match a with
  | ⟨0, _⟩ => show win0_2.index t (0 : Fin 2) * 2048 + 1 * r.val = R.val; rw [e0, hR]; omega
  | ⟨1, _⟩ => show win0_2.index t (1 : Fin 2) * 1 + 1 * 0 = 0; rw [e1]

/-- The column scales' block at point `t`, entry (0, q). -/
theorem blk3_apply (c : Dev nD) (t : Fin cfg0.N) (q : Fin 512) (Nn : Fin 11264)
    (hN : Nn.val = 512 * (t.val / 4 % 22) + q.val) :
    (iblk m c 3 t : Vec F S1x512 .f32) (ix2 (0 : Fin 1) q) = V m c main_v37 (ix2 (0 : Fin 1) Nn) := by
  obtain ⟨-, -, -, -, -, -, e0, e1, -⟩ := idx_facts t
  unfold iblk
  rw [View.read_apply]
  show V m c main_v37 _ = V m c main_v37 _
  refine congrArg (V m c main_v37) (funext fun a => Fin.ext ?_)
  match a with
  | ⟨0, _⟩ => show win0_3.index t (0 : Fin 2) * 1 + 1 * 0 = 0; rw [e0]
  | ⟨1, _⟩ => show win0_3.index t (1 : Fin 2) * 512 + 1 * q.val = Nn.val; rw [e1, hN]; omega

end Cert.KerRun

end
-- ==== Proof.Gemm.lean ====
/-
  The product the kernel computes, as a function of its four operands, index by index: entry `(i, j)` of the
  8192 × 11264 result is the inner product of row `i` of the left operand with row `j` of the right operand over
  the 4096 columns, times the scale of row `i`, times the scale of column `j`.  No program is imported.
-/
import Idealize.ShloMosaic.PureOps.Ideal
import Idealize.ShloMosaic.Lib.ValueIdx

noncomputable section

namespace Cert.Gemm

open Idealize.ShloMosaic Idealize.ShloMosaic.ValueIdx

/-- Entry `(i, j)`: `((∑ₖ a[i, k] · b[j, k]) · rs[i, 0]) · cs[0, j]`. -/
def gemmAt (a : (⟨2, ![8192, 4096]⟩ : Shape).Idx → EReal) (b : (⟨2, ![11264, 4096]⟩ : Shape).Idx → EReal)
    (rs : (⟨2, ![8192, 1]⟩ : Shape).Idx → EReal) (cs : (⟨2, ![1, 11264]⟩ : Shape).Idx → EReal)
    (i : Fin 8192) (j : Fin 11264) : EReal :=
  ((∑ k : Fin 4096, a (ix2 i k) * b (ix2 j k)) * rs (ix2 i (0 : Fin 1))) * cs (ix2 (0 : Fin 1) j)

/-- The whole 8192 × 11264 result. -/
def gemm (a : (⟨2, ![8192, 4096]⟩ : Shape).Idx → EReal) (b : (⟨2, ![11264, 4096]⟩ : Shape).Idx → EReal)
    (rs : (⟨2, ![8192, 1]⟩ : Shape).Idx → EReal) (cs : (⟨2, ![1, 11264]⟩ : Shape).Idx → EReal) :
    (⟨2, ![8192, 11264]⟩ : Shape).Idx → EReal :=
  fun y => gemmAt a b rs cs (y 0) (y 1)

theorem gemm_ix2 (a : (⟨2, ![8192, 4096]⟩ : Shape).Idx → EReal) (b : (⟨2, ![11264, 4096]⟩ : Shape).Idx → EReal)
    (rs : (⟨2, ![8192, 1]⟩ : Shape).Idx → EReal) (cs : (⟨2, ![1, 11264]⟩ : Shape).Idx → EReal)
    (i : Fin 8192) (j : Fin 11264) : gemm a b rs cs (ix2 i j) = gemmAt a b rs cs i j := rfl

end Cert.Gemm

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.KerRun.BlockSum.lean ====
/-
  The algebra of one output entry, with no program in sight. If four pairs of blocks are the four consecutive
  1024-column pieces of row R of a left array and of row N of a right array, then the sum of the four blocks' inner
  products is the inner product over all 4096 columns — a sum over a range cut into four consecutive blocks of equal
  length, which needs only that addition is commutative and associative, so it holds on the extended reals with no
  finiteness assumption — and scaling it by the two scales gives the product's entry (R, N).
-/
import proofs.«119141_j49220325212290_2_alg».proof.Proof.Gemm
import proofs.«119141_j49220325212290_2_alg».proof.Proof.LibEReal

noncomputable section

open Idealize.ShloMosaic Idealize.ShloMosaic.ValueIdx

namespace Cert.KerRun

/-- The 4096 columns are four blocks of 1024. -/
theorem h4 : 4 * 1024 = 4096 := rfl

theorem gemmAt_of_blocks
    (A : (⟨2, ![8192, 4096]⟩ : Shape).Idx → EReal) (B : (⟨2, ![11264, 4096]⟩ : Shape).Idx → EReal)
    (rs : (⟨2, ![8192, 1]⟩ : Shape).Idx → EReal) (cs : (⟨2, ![1, 11264]⟩ : Shape).Idx → EReal)
    (a0 a1 a2 a3 : (⟨2, ![2048, 1024]⟩ : Shape).Idx → EReal) (b0 b1 b2 b3 : (⟨2, ![512, 1024]⟩ : Shape).Idx → EReal)
    (x2 : (⟨2, ![2048, 1]⟩ : Shape).Idx → EReal) (x3 : (⟨2, ![1, 512]⟩ : Shape).Idx → EReal)
    (r : Fin 2048) (q : Fin 512) (R : Fin 8192) (N : Fin 11264)
    (ha0 : ∀ k : Fin 1024, a0 (ix2 r k) = A (ix2 R (Cert.Spec.blockIdx h4 0 k)))
    (ha1 : ∀ k : Fin 1024, a1 (ix2 r k) = A (ix2 R (Cert.Spec.blockIdx h4 1 k)))
    (ha2 : ∀ k : Fin 1024, a2 (ix2 r k) = A (ix2 R (Cert.Spec.blockIdx h4 2 k)))
    (ha3 : ∀ k : Fin 1024, a3 (ix2 r k) = A (ix2 R (Cert.Spec.blockIdx h4 3 k)))
    (hb0 : ∀ k : Fin 1024, b0 (ix2 q k) = B (ix2 N (Cert.Spec.blockIdx h4 0 k)))
    (hb1 : ∀ k : Fin 1024, b1 (ix2 q k) = B (ix2 N (Cert.Spec.blockIdx h4 1 k)))
    (hb2 : ∀ k : Fin 1024, b2 (ix2 q k) = B (ix2 N (Cert.Spec.blockIdx h4 2 k)))
    (hb3 : ∀ k : Fin 1024, b3 (ix2 q k) = B (ix2 N (Cert.Spec.blockIdx h4 3 k)))
    (h2 : x2 (ix2 r (0 : Fin 1)) = rs (ix2 R (0 : Fin 1))) (h3 : x3 (ix2 (0 : Fin 1) q) = cs (ix2 (0 : Fin 1) N)) :
    (((((∑ k : Fin 1024, a0 (ix2 r k) * b0 (ix2 q k)) + ∑ k : Fin 1024, a1 (ix2 r k) * b1 (ix2 q k))
          + ∑ k : Fin 1024, a2 (ix2 r k) * b2 (ix2 q k)) + ∑ k : Fin 1024, a3 (ix2 r k) * b3 (ix2 q k))
        * x2 (ix2 r (0 : Fin 1))) * x3 (ix2 (0 : Fin 1) q)
      = Cert.Gemm.gemmAt A B rs cs R N := by
  unfold Cert.Gemm.gemmAt
  rw [Cert.Spec.sum_blocks h4 (fun K : Fin 4096 => A (ix2 R K) * B (ix2 N K)), Fin.sum_univ_four]
  simp only [ha0, ha1, ha2, ha3, hb0, hb1, hb2, hb3, h2, h3]

end Cert.KerRun

end
-- ==== Proof.KerRun.Tile.lean ====
/-
  One entry of a tile. Point n + 3 (n a multiple of four) is the last of the run of tile (i, j), i = (n + 3) / 88,
  j = (n + 3) / 4 % 22; the run's four points n, n + 1, n + 2, n + 3 load the column blocks 1024 s … 1024 s + 1023
  (s = 0, 1, 2, 3) of rows 2048 i … of the left operand and of rows 512 j … of the right operand, and the last one
  loads the scales of those rows and columns. So entry (r, q) of the tile is entry (2048 i + r, 512 j + q) of the
  product.
-/
import proofs.«119141_j49220325212290_2_alg».proof.Proof.KerRun.Acc
import proofs.«119141_j49220325212290_2_alg».proof.Proof.KerRun.Payload
import proofs.«119141_j49220325212290_2_alg».proof.Proof.KerRun.Blocks
import proofs.«119141_j49220325212290_2_alg».proof.Proof.KerRun.BlockSum

noncomputable section

open Idealize.ShloMosaic Idealize.ShloMosaic.TcCoe Idealize.SL.Sem Idealize.ShloMosaic.ValueIdx
open Idealize.ShloMosaic.Pipeline (Dat)

namespace Cert.KerRun

open Cert.KernelIdeal Cert.KernelIdeal.Gen

variable (m : (ℓ : Loc nD τ sig) → Buf (Elt Ideal) ℓ)

/-- The product of the four operand arrays as the region finds them. -/
abbrev G (c : Dev nD) : (⟨2, ![8192, 11264]⟩ : Shape).Idx → EReal :=
  Cert.Gemm.gemm (V (F := Ideal) m c main_v34) (V (F := Ideal) m c main_v35) (V (F := Ideal) m c main_v36) (V (F := Ideal) m c main_v37)

/-- Entry (r, q) of the tile that the run starting at `n` leaves is entry (R, N) of the product, where R and N are
    the entry's row and column in the whole array. -/
theorem tile_entry (c : Dev nD) (n : ℕ) (h : n + 3 < cfg0.N) (hn : n % 4 = 0) (r : Fin 2048) (q : Fin 512)
    (R : Fin 8192) (Nn : Fin 11264) (hR : R.val = 2048 * ((n + 3) / 88) + r.val)
    (hN : Nn.val = 512 * ((n + 3) / 4 % 22) + q.val) :
    ((outsAt0 (F := Ideal) m c (n + 3) h).1 (ix2 r q) : EReal)
      = Cert.Gemm.gemmAt (V (F := Ideal) m c main_v34) (V (F := Ideal) m c main_v35) (V (F := Ideal) m c main_v36)
          (V (F := Ideal) m c main_v37) R Nn := by
  have hlt : n + 3 < 352 := lt_of_lt_of_eq h N_0
  have h2 : n + 2 < cfg0.N := Nat.lt_of_succ_lt h
  have h1 : n + 1 < cfg0.N := Nat.lt_of_succ_lt h2
  have h0 : n < cfg0.N := Nat.lt_of_succ_lt h1
  rw [tile_eq m c n h hn]
  refine (tile_apply (iblk m c 0 ⟨n, h0⟩) (iblk m c 0 ⟨n + 1, h1⟩) (iblk m c 0 ⟨n + 2, h2⟩) (iblk m c 0 ⟨n + 3, h⟩)
    (iblk m c 1 ⟨n, h0⟩) (iblk m c 1 ⟨n + 1, h1⟩) (iblk m c 1 ⟨n + 2, h2⟩) (iblk m c 1 ⟨n + 3, h⟩)
    (iblk m c 2 ⟨n + 3, h⟩) (iblk m c 3 ⟨n + 3, h⟩) r q).trans ?_
  exact gemmAt_of_blocks (V (F := Ideal) m c main_v34) (V (F := Ideal) m c main_v35) (V (F := Ideal) m c main_v36)
    (V (F := Ideal) m c main_v37)
    (iblk m c 0 ⟨n, h0⟩) (iblk m c 0 ⟨n + 1, h1⟩) (iblk m c 0 ⟨n + 2, h2⟩) (iblk m c 0 ⟨n + 3, h⟩)
    (iblk m c 1 ⟨n, h0⟩) (iblk m c 1 ⟨n + 1, h1⟩) (iblk m c 1 ⟨n + 2, h2⟩) (iblk m c 1 ⟨n + 3, h⟩)
    (iblk m c 2 ⟨n + 3, h⟩) (iblk m c 3 ⟨n + 3, h⟩) r q R Nn
    (fun k => blk0_apply m c ⟨n, h0⟩ r k R (Cert.Spec.blockIdx h4 0 k)
      (by show R.val = 2048 * (n / 88) + r.val; omega) (by show 0 * 1024 + k.val = 1024 * (n % 4) + k.val; omega))
    (fun k => blk0_apply m c ⟨n + 1, h1⟩ r k R (Cert.Spec.blockIdx h4 1 k)
      (by show R.val = 2048 * ((n + 1) / 88) + r.val; omega) (by show 1 * 1024 + k.val = 1024 * ((n + 1) % 4) + k.val; omega))
    (fun k => blk0_apply m c ⟨n + 2, h2⟩ r k R (Cert.Spec.blockIdx h4 2 k)
      (by show R.val = 2048 * ((n + 2) / 88) + r.val; omega) (by show 2 * 1024 + k.val = 1024 * ((n + 2) % 4) + k.val; omega))
    (fun k => blk0_apply m c ⟨n + 3, h⟩ r k R (Cert.Spec.blockIdx h4 3 k)
      hR (by show 3 * 1024 + k.val = 1024 * ((n + 3) % 4) + k.val; omega))
    (fun k => blk1_apply m c ⟨n, h0⟩ q k Nn (Cert.Spec.blockIdx h4 0 k)
      (by show Nn.val = 512 * (n / 4 % 22) + q.val; omega) (by show 0 * 1024 + k.val = 1024 * (n % 4) + k.val; omega))
    (fun k => blk1_apply m c ⟨n + 1, h1⟩ q k Nn (Cert.Spec.blockIdx h4 1 k)
      (by show Nn.val = 512 * ((n + 1) / 4 % 22) + q.val; omega) (by show 1 * 1024 + k.val = 1024 * ((n + 1) % 4) + k.val; omega))
    (fun k => blk1_apply m c ⟨n + 2, h2⟩ q k Nn (Cert.Spec.blockIdx h4 2 k)
      (by show Nn.val = 512 * ((n + 2) / 4 % 22) + q.val; omega) (by show 2 * 1024 + k.val = 1024 * ((n + 2) % 4) + k.val; omega))
    (fun k => blk1_apply m c ⟨n + 3, h⟩ q k Nn (Cert.Spec.blockIdx h4 3 k)
      hN (by show 3 * 1024 + k.val = 1024 * ((n + 3) % 4) + k.val; omega))
    (blk2_apply m c ⟨n + 3, h⟩ r R hR) (blk3_apply m c ⟨n + 3, h⟩ q Nn hN)

end Cert.KerRun

end
-- ==== Proof.KerRun.Final.lean ====
/-
  The result array after the region. A point writes the output's block back exactly when it is the last of its run
  (t % 4 = 3), and what it writes is its tile of the product; the tiles (i, j), i < 4, j < 22, cover the 8192 × 11264
  array — entry (a, b) lies in the tile i = a / 2048, j = b / 512, written back at point (22 i + j) · 4 + 3 — so the
  array ends holding the product.
-/
import proofs.«119141_j49220325212290_2_alg».proof.Proof.KerRun.Tile

noncomputable section

open Idealize.ShloMosaic Idealize.ShloMosaic.TcCoe Idealize.SL.Sem Idealize.ShloMosaic.ValueIdx
open Idealize.ShloMosaic.Pipeline (Dat)

namespace Cert.KerRun

open Cert.KernelIdeal Cert.KernelIdeal.Gen

variable (m : (ℓ : Loc nD τ sig) → Buf (Elt Ideal) ℓ)

/-- What a flushing point writes back is its block of the product. -/
theorem flushed_eq (c : Dev nD) (t : Fin cfg0.N) (hf : (cfg0.win 4).flush t = true) :
    (dats (F := Ideal) m 0 c).flushed 4 t = ((cfg0.win 4).blk t).view.read (Elt Ideal) (G m c) := by
  have h3 : t.val % 4 = 3 := (flush0_4 t).mp hf
  obtain ⟨tv, ht⟩ := t
  obtain ⟨n, rfl⟩ : ∃ n, tv = n + 3 := ⟨tv - 3, by dsimp only at h3; omega⟩
  have hn4 : n % 4 = 0 := by dsimp only at h3; omega
  have hlt : n + 3 < 352 := lt_of_lt_of_eq ht N_0
  show (cfg0.win 4).cut (grid0.coords ⟨n + 3, ht⟩) ((dats (F := Ideal) m 0 c).after 4 ⟨n + 3, ht⟩) = _
  rw [after0_4]
  obtain ⟨-, -, -, -, -, -, -, -, e0, e1⟩ := idx_facts ⟨n + 3, ht⟩
  funext y
  have hy0 : (y 0).val < 2048 := (y 0).isLt
  have hy1 : (y 1).val < 512 := (y 1).isLt
  rw [View.read_apply]
  show (outsAt0 (F := Ideal) m c (n + 3) ht).1 (win0_4.xinj (grid0.coords ⟨n + 3, ht⟩) y)
    = G m c (((cfg0.win 4).blk ⟨n + 3, ht⟩).view.emb y)
  have hx : win0_4.xinj (grid0.coords ⟨n + 3, ht⟩) y = ix2 (⟨(y 0).val, hy0⟩ : Fin 2048) (⟨(y 1).val, hy1⟩ : Fin 512) :=
    funext fun a => by
      match a with
      | ⟨0, _⟩ => rfl
      | ⟨1, _⟩ => rfl
  have he : ((cfg0.win 4).blk ⟨n + 3, ht⟩).view.emb y
      = ix2 (⟨2048 * ((n + 3) / 88) + (y 0).val, by omega⟩ : Fin 8192) (⟨512 * ((n + 3) / 4 % 22) + (y 1).val, by omega⟩ : Fin 11264) :=
    funext fun a => Fin.ext (by
      match a with
      | ⟨0, _⟩ => show win0_4.index ⟨n + 3, ht⟩ (0 : Fin 2) * 2048 + 1 * (y 0).val = 2048 * ((n + 3) / 88) + (y 0).val; rw [e0]; show (n + 3) / 88 * 2048 + 1 * (y 0).val = _; omega
      | ⟨1, _⟩ => show win0_4.index ⟨n + 3, ht⟩ (1 : Fin 2) * 512 + 1 * (y 1).val = 512 * ((n + 3) / 4 % 22) + (y 1).val; rw [e1]; show (n + 3) / 4 % 22 * 512 + 1 * (y 1).val = _; omega)
  rw [hx, he]
  exact tile_entry m c n ht hn4 ⟨(y 0).val, hy0⟩ ⟨(y 1).val, hy1⟩ _ _ rfl rfl

/-- Every entry of the array lies in the block of some flushing point. -/
theorem cover (i : S8192x11264.Idx) :
    ∃ t : Fin cfg0.N, (cfg0.win 4).flush t = true ∧ i ∈ ((cfg0.win 4).blk t).view.set := by
  have h0 : (i 0).val < 8192 := (i 0).isLt
  have h1 : (i 1).val < 11264 := (i 1).isLt
  obtain ⟨tv, htv⟩ : ∃ tv, tv = ((i 0).val / 2048 * 22 + (i 1).val / 512) * 4 + 3 := ⟨_, rfl⟩
  have hlt : tv < cfg0.N := by rw [show cfg0.N = 352 from N_0]; omega
  refine ⟨⟨tv, hlt⟩, (flush0_4 ⟨tv, hlt⟩).mpr (by show tv % 4 = 3; omega), ?_⟩
  obtain ⟨-, -, -, -, -, -, -, -, e0, e1⟩ := idx_facts ⟨tv, hlt⟩
  show i ∈ ((View.whole main_v38).slice (win0_4.rect ⟨tv, hlt⟩)).set
  rw [View.set_slice_whole, Rect.mem_set_unit]
  intro a
  match a with
  | ⟨0, _⟩ =>
    show win0_4.index ⟨tv, hlt⟩ (0 : Fin 2) * 2048 ≤ (i 0).val ∧ (i 0).val < win0_4.index ⟨tv, hlt⟩ (0 : Fin 2) * 2048 + 2048
    rw [e0]; show tv / 88 * 2048 ≤ (i 0).val ∧ (i 0).val < tv / 88 * 2048 + 2048; omega
  | ⟨1, _⟩ =>
    show win0_4.index ⟨tv, hlt⟩ (1 : Fin 2) * 512 ≤ (i 1).val ∧ (i 1).val < win0_4.index ⟨tv, hlt⟩ (1 : Fin 2) * 512 + 512
    rw [e1]; show tv / 4 % 22 * 512 ≤ (i 1).val ∧ (i 1).val < tv / 4 % 22 * 512 + 512; omega

/-- THE RESULT ARRAY after the region is the product of the operand arrays as the region finds them. -/
theorem final (c : Dev nD) :
    (dats (F := Ideal) m 0 c).arrAt 4 cfg0.N
      = Cert.Gemm.gemm (V (F := Ideal) m c main_v34) (V (F := Ideal) m c main_v35) (V (F := Ideal) m c main_v36) (V (F := Ideal) m c main_v37) :=
  (dats (F := Ideal) m 0 c).arrAt_eq_of_cover 4 (G m c) (fun t hf => flushed_eq m c t hf) cover

end Cert.KerRun

end
-- ==== Proof.KerRun.lean ====
/-
  The kernel program's run, read: the region leaves the 8192 × 11264 product in its result array; the two host
  operations after it keep the first 11008 columns and recast the 8192 rows as 4 × 2048; the three argument arrays
  are as launched.
-/
import proofs.«119141_j49220325212290_2_alg».proof.Proof.KerRun.Final
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KerRun

open Cert.KernelIdeal Cert.KernelIdeal.Gen

variable (m : (ℓ : Loc nD τ sig) → Buf (Elt Ideal) ℓ)

/-- The host operations after the region, applied to what the region leaves: the slice and the recast of the
    product. -/
theorem tail_eq (c : Dev nD) :
    Pipeline.afterTail₀ cfgs (dats (F := Ideal) m) 0 (V0 (F := Ideal) m) [hostOps1] c main_v40
      = shapeCast _ (extractStridedSlice S8192x11008 ![0, 0]
          (Cert.Gemm.gemm (V (F := Ideal) m c main_v34) (V (F := Ideal) m c main_v35) (V (F := Ideal) m c main_v36) (V (F := Ideal) m c main_v37))
          slices_S8192x11264_S8192x11008_0_0) shapeCasts_S8192x11008_S4x2048x11008 := by
  unfold Pipeline.afterTail₀
  show StableHlo.after hostOps1 _ (Proc.devRef .tc main_v40) = _
  after_results
  rw [Pipeline.withArrays_arr spec0 launch0.win.arr_inj c _ _ 4, final]
  rfl

/-- THE RUN: every weakly fair execution of the program terminates with the result at the slice and recast of the
    product of the operand arrays as the region finds them, and the arguments unchanged. -/
theorem run (ρ : Dev nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v40)
          = shapeCast _ (extractStridedSlice S8192x11008 ![0, 0]
              (Cert.Gemm.gemm (V (F := Ideal) m c main_v34) (V (F := Ideal) m c main_v35) (V (F := Ideal) m c main_v36) (V (F := Ideal) m c main_v37))
              slices_S8192x11264_S8192x11008_0_0) shapeCasts_S8192x11008_S4x2048x11008
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run defs _ _).mono (fun _ h c =>
      ⟨((h c).2 main_v40 (Pipeline.mem_restRefs_of main_v40 (by decide) (by decide))).trans (tail_eq m c),
        ((h c).2 main_arg0 (Pipeline.mem_restRefs_of main_arg0 (by decide) (by decide))).trans (W_main_arg0 m (dats (F := Ideal) m) c),
        ((h c).2 main_arg1 (Pipeline.mem_restRefs_of main_arg1 (by decide) (by decide))).trans (W_main_arg1 m (dats (F := Ideal) m) c),
        ((h c).2 main_arg2 (Pipeline.mem_restRefs_of main_arg2 (by decide) (by decide))).trans (W_main_arg2 m (dats (F := Ideal) m) c)⟩)
    (run_main (F := Ideal) m ρ)

end Cert.KerRun

end
-- ==== Proof.Stages.lean ====
/-
  The two programs as compositions of named stages.

  Both programs first compute, from the activations `x` (read as an 8192 × 4096 matrix), the threshold `σ` and the
  weights `w`: the outlier-column mask (a column is an outlier when some entry of it exceeds `σ` in absolute value),
  the outlier part and the inlier part of `x` (one of them zero in every column), the per-row scale of the inlier part,
  the quantized inlier part, and the per-row scale of the weights.  The kernel's program then builds ONE left operand
  (quantized inliers plus outliers divided by the row scale) and ONE right operand (the quantized weights, padded by
  256 rows) for a single product scaled by rows and columns; the reference takes two products, one over the inlier
  columns and one over the outlier columns, and adds them.  Each stage below is one such intermediate value, as the
  host operations compute it.
-/
import proofs.«119141_j49220325212290_2_alg».proof.Proof.Gen.KernelIdeal
import proofs.«119141_j49220325212290_2_alg».proof.Proof.Gen.ReferenceIdeal

noncomputable section

namespace Cert.Stages

open Idealize.ShloMosaic

variable {F : FTy → Type} [FloatOps F]

/-- The contents of a buffer of a given shape and element type. -/
abbrev Arr (S : Shape) (φ : EltTy) : Type := (⟨S, φ⟩ : BufTy).Contents (Elt F)

section Shared
open Cert.KernelIdeal Cert.KernelIdeal.Facts₀

/-- The activations as an 8192 × 4096 matrix. -/
def x2 (x : Arr (F := F) S4x2048x4096 .f32) : Arr (F := F) S8192x4096 .f32 :=
  shapeCast _ x shapeCasts_S4x2048x4096_S8192x4096

/-- The threshold as a scalar. -/
def sg (s : Arr (F := F) S1 .f32) : Arr (F := F) S_ .f32 := shapeCast _ s shapeCasts_S1_S_

/-- The outlier-column mask: column `k` is marked when some `|x[r, k]|` exceeds the threshold. -/
def mask (x : Arr (F := F) S4x2048x4096 .f32) (s : Arr (F := F) S1 .f32) : Arr (F := F) S4096 .i1 :=
  Host.reduce IntOp.ori (cmpf .ogt (Host.absf (x2 x)) (broadcastInDim S8192x4096 ![] bcast_S_S8192x4096 (sg s)))
    (constantI S_ 1 0#1) reducesTo_S8192x4096_S4096_d0 h_S_

/-- The mask as a row. -/
def maskRow (x : Arr (F := F) S4x2048x4096 .f32) (s : Arr (F := F) S1 .f32) : Arr (F := F) S1x4096 .i1 :=
  broadcastInDim S1x4096 ![1] bcast_S4096_S1x4096_1 (mask x s)

/-- The mask repeated over the 8192 rows. -/
def maskB (x : Arr (F := F) S4x2048x4096 .f32) (s : Arr (F := F) S1 .f32) : Arr (F := F) S8192x4096 .i1 :=
  broadcastInDim S8192x4096 ![0, 1] bcast_S1x4096_S8192x4096_0_1 (maskRow x s)

/-- The 8192 × 4096 matrix of zeros. -/
def zeroB : Arr (F := F) S8192x4096 .f32 :=
  broadcastInDim S8192x4096 ![] bcast_S_S8192x4096 (id (constant S_ .f32 0x00000000#32))

/-- The outlier part of `x`: `x` on the marked columns, zero elsewhere. -/
def xout (x : Arr (F := F) S4x2048x4096 .f32) (s : Arr (F := F) S1 .f32) : Arr (F := F) S8192x4096 .f32 :=
  select (maskB x s) (x2 x) zeroB

/-- The inlier part of `x`: zero on the marked columns, `x` elsewhere. -/
def xin (x : Arr (F := F) S4x2048x4096 .f32) (s : Arr (F := F) S1 .f32) : Arr (F := F) S8192x4096 .f32 :=
  select (maskB x s) zeroB (x2 x)

/-- The row scale of any 8192 × 4096 matrix `y`: the larger of (largest `|y[r, ·]|`) / 127 and the floor `1e-8`. -/
def rowScale (y : Arr (F := F) S8192x4096 .f32) : Arr (F := F) S8192 .f32 :=
  maximumf
    (Host.divf
      (Host.reduce FloatOps.maximumf (Host.absf y) (constant S_ .f32 0xFF800000#32) reducesTo_S8192x4096_S8192_d1 h_S_)
      (broadcastInDim S8192 ![] bcast_S_S8192 (constant S_ .f32 0x42FE0000#32)))
    (broadcastInDim S8192 ![] bcast_S_S8192 (constant S_ .f32 0x322BCC77#32))

/-- The row scale of the inlier part. -/
def xs (x : Arr (F := F) S4x2048x4096 .f32) (s : Arr (F := F) S1 .f32) : Arr (F := F) S8192 .f32 :=
  rowScale (xin x s)

/-- The row scale repeated along the 4096 columns. -/
def xsB (x : Arr (F := F) S4x2048x4096 .f32) (s : Arr (F := F) S1 .f32) : Arr (F := F) S8192x4096 .f32 :=
  broadcastInDim S8192x4096 ![0, 1] bcast_S8192x1_S8192x4096_0_1
    (broadcastInDim S8192x1 ![0] bcast_S8192_S8192x1_0 (xs x s))

/-- The quantized inlier part: inliers divided by the row scale, rounded to the nearest integer (ties to even). -/
def qx (x : Arr (F := F) S4x2048x4096 .f32) (s : Arr (F := F) S1 .f32) : Arr (F := F) S8192x4096 .f32 :=
  Host.roundeven (Host.divf (xin x s) (xsB x s))

/-- The weight scale of row `n`: (largest `|w[n, ·]|`) / 64. -/
def sc (w : Arr (F := F) S11008x4096 .f32) : Arr (F := F) S11008 .f32 :=
  Host.divf
    (Host.reduce FloatOps.maximumf (Host.absf w) (constant S_ .f32 0xFF800000#32) reducesTo_S11008x4096_S11008_d1 h_S_)
    (broadcastInDim S11008 ![] bcast_S_S11008 (constant S_ .f32 0x42800000#32))

end Shared

section KernelOnly
open Cert.KernelIdeal Cert.KernelIdeal.Facts₀

/-- The weight scales padded with 256 ones. -/
def scp (w : Arr (F := F) S11008x4096 .f32) : Arr (F := F) S11264 .f32 :=
  pad S11264 ![0] ![256] ![0] (sc w) (id (constant S_ .f32 0x3F800000#32)) pads_S11008_S11264_02560 h_S_

/-- The weights padded with 256 rows of zeros. -/
def wp (w : Arr (F := F) S11008x4096 .f32) : Arr (F := F) S11264x4096 .f32 :=
  pad S11264x4096 ![0, 0] ![256, 0] ![0, 0] w (sitofp .f32 (constantI S_ 32 0#32)) pads_S11008x4096_S11264x4096_02560_000 h_S_

/-- The padded weight scales repeated along the 4096 columns. -/
def scpB (w : Arr (F := F) S11008x4096 .f32) : Arr (F := F) S11264x4096 .f32 :=
  broadcastInDim S11264x4096 ![0, 1] bcast_S11264x1_S11264x4096_0_1
    (broadcastInDim S11264x1 ![0] bcast_S11264_S11264x1_0 (scp w))

/-- The quantized padded weights. -/
def qwp (w : Arr (F := F) S11008x4096 .f32) : Arr (F := F) S11264x4096 .f32 :=
  Host.roundeven (Host.divf (wp w) (scpB w))

/-- The kernel's left operand: quantized inliers plus outliers divided by the row scale. -/
def aMat (x : Arr (F := F) S4x2048x4096 .f32) (s : Arr (F := F) S1 .f32) : Arr (F := F) S8192x4096 .bf16 :=
  truncf .bf16 (addf (qx x s) (Host.divf (xout x s) (xsB x s))) bitsLt_bf16_f32

/-- The kernel's right operand: the quantized padded weights. -/
def bMat (w : Arr (F := F) S11008x4096 .f32) : Arr (F := F) S11264x4096 .bf16 :=
  truncf .bf16 (qwp w) bitsLt_bf16_f32

/-- The row scales as a column. -/
def rsCol (x : Arr (F := F) S4x2048x4096 .f32) (s : Arr (F := F) S1 .f32) : Arr (F := F) S8192x1 .f32 :=
  shapeCast _ (xs x s) shapeCasts_S8192_S8192x1

/-- The padded weight scales as a row. -/
def csRow (w : Arr (F := F) S11008x4096 .f32) : Arr (F := F) S1x11264 .f32 :=
  shapeCast _ (scp w) shapeCasts_S11264_S1x11264

end KernelOnly

section ReferenceOnly
open Cert.ReferenceIdeal Cert.ReferenceIdeal.Facts₀

/-- The weight scales repeated along the 4096 columns. -/
def scB (w : Arr (F := F) S11008x4096 .f32) : Arr (F := F) S11008x4096 .f32 :=
  broadcastInDim S11008x4096 ![0, 1] bcast_S11008x1_S11008x4096_0_1
    (broadcastInDim S11008x1 ![0] bcast_S11008_S11008x1_0 (sc w))

/-- The quantized weights. -/
def qw (w : Arr (F := F) S11008x4096 .f32) : Arr (F := F) S11008x4096 .f32 :=
  Host.roundeven (Host.divf w (scB w))

/-- The mask repeated over the 11008 weight rows. -/
def maskW (x : Arr (F := F) S4x2048x4096 .f32) (s : Arr (F := F) S1 .f32) : Arr (F := F) S11008x4096 .i1 :=
  broadcastInDim S11008x4096 ![0, 1] bcast_S1x4096_S11008x4096_0_1 (maskRow x s)

/-- The dequantized weights on the outlier columns, zero elsewhere. -/
def wdq (x : Arr (F := F) S4x2048x4096 .f32) (w : Arr (F := F) S11008x4096 .f32) (s : Arr (F := F) S1 .f32) :
    Arr (F := F) S11008x4096 .f32 :=
  mulf (mulf (qw w) (scB w))
    (broadcastInDim S11008x4096 ![0, 1] bcast_S1x4096_S11008x4096_0_1 (uitofp .f32 (maskRow x s)))

/-- The quantized weights on the inlier columns, zero on the outlier columns. -/
def qwin (x : Arr (F := F) S4x2048x4096 .f32) (w : Arr (F := F) S11008x4096 .f32) (s : Arr (F := F) S1 .f32) :
    Arr (F := F) S11008x4096 .f32 :=
  select (maskW x s) (broadcastInDim S11008x4096 ![] bcast_S_S11008x4096 (id (constant S_ .f32 0x00000000#32))) (qw w)

/-- The outlier product. -/
def outl (x : Arr (F := F) S4x2048x4096 .f32) (w : Arr (F := F) S11008x4096 .f32) (s : Arr (F := F) S1 .f32) :
    Arr (F := F) S8192x11008 .f32 :=
  Host.dotGeneral dot_S8192x4096_S4096x11008_S8192x11008_1_0_0_1_n_n none (xout x s)
    (transpose S4096x11008 [1, 0] (wdq x w s) transposes_S11008x4096_S4096x11008_1_0)

/-- The quantized product. -/
def dq (x : Arr (F := F) S4x2048x4096 .f32) (w : Arr (F := F) S11008x4096 .f32) (s : Arr (F := F) S1 .f32) :
    Arr (F := F) S8192x11008 .f32 :=
  Host.dotGeneral dot_S8192x4096_S4096x11008_S8192x11008_1_0_0_1_n_n none (qx x s)
    (transpose S4096x11008 [1, 0] (qwin x w s) transposes_S11008x4096_S4096x11008_1_0)

/-- The reference's result as an 8192 × 11008 matrix: the quantized product scaled by rows and columns, plus the
    outlier product. -/
def yref (x : Arr (F := F) S4x2048x4096 .f32) (w : Arr (F := F) S11008x4096 .f32) (s : Arr (F := F) S1 .f32) :
    Arr (F := F) S8192x11008 .f32 :=
  addf
    (mulf
      (mulf (dq x w s)
        (broadcastInDim S8192x11008 ![0, 1] bcast_S8192x1_S8192x11008_0_1
          (broadcastInDim S8192x1 ![0] bcast_S8192_S8192x1_0 (xs x s))))
      (broadcastInDim S8192x11008 ![0, 1] bcast_S1x11008_S8192x11008_0_1
        (broadcastInDim S1x11008 ![1] bcast_S11008_S1x11008_1 (sc w))))
    (outl x w s)

/-- The reference's result. -/
def refResult (x : Arr (F := F) S4x2048x4096 .f32) (w : Arr (F := F) S11008x4096 .f32) (s : Arr (F := F) S1 .f32) :
    Arr (F := F) S4x2048x11008 .f32 :=
  shapeCast _ (yref x w s) shapeCasts_S8192x11008_S4x2048x11008

end ReferenceOnly

end Cert.Stages

end
-- ==== Proof.StagesOf.lean ====
/-
  The stages again, each as a function of the stages it is computed from (rather than of the program's arguments),
  so that a stretch of host operations can be read with its inputs left as unknowns.
-/
import proofs.«119141_j49220325212290_2_alg».proof.Proof.Stages

noncomputable section

namespace Cert.Stages

open Idealize.ShloMosaic

variable {F : FTy → Type} [FloatOps F]

section Shared
open Cert.KernelIdeal Cert.KernelIdeal.Facts₀

/-- The mask from the activation matrix and the scalar threshold. -/
def maskOf (X : Arr (F := F) S8192x4096 .f32) (SG : Arr (F := F) S_ .f32) : Arr (F := F) S4096 .i1 :=
  Host.reduce IntOp.ori (cmpf .ogt (Host.absf X) (broadcastInDim S8192x4096 ![] bcast_S_S8192x4096 SG))
    (constantI S_ 1 0#1) reducesTo_S8192x4096_S4096_d0 h_S_

/-- A mask repeated over the 8192 rows. -/
def maskBOf (M : Arr (F := F) S4096 .i1) : Arr (F := F) S8192x4096 .i1 :=
  broadcastInDim S8192x4096 ![0, 1] bcast_S1x4096_S8192x4096_0_1 (broadcastInDim S1x4096 ![1] bcast_S4096_S1x4096_1 M)

/-- The outlier part from the mask and the activation matrix. -/
def xoutOf (M : Arr (F := F) S4096 .i1) (X : Arr (F := F) S8192x4096 .f32) : Arr (F := F) S8192x4096 .f32 :=
  select (maskBOf M) X zeroB

/-- The inlier part from the mask and the activation matrix. -/
def xinOf (M : Arr (F := F) S4096 .i1) (X : Arr (F := F) S8192x4096 .f32) : Arr (F := F) S8192x4096 .f32 :=
  select (maskBOf M) zeroB X

/-- A vector of 8192 row values repeated along the 4096 columns. -/
def rowsB (v : Arr (F := F) S8192 .f32) : Arr (F := F) S8192x4096 .f32 :=
  broadcastInDim S8192x4096 ![0, 1] bcast_S8192x1_S8192x4096_0_1 (broadcastInDim S8192x1 ![0] bcast_S8192_S8192x1_0 v)

/-- The quantized inlier part from the inlier part and the row scales. -/
def qxOf (XIN : Arr (F := F) S8192x4096 .f32) (XS : Arr (F := F) S8192 .f32) : Arr (F := F) S8192x4096 .f32 :=
  Host.roundeven (Host.divf XIN (rowsB XS))

/-- The kernel's left operand from the quantized inliers, the outlier part and the row scales. -/
def aMatOf (QX XOUT : Arr (F := F) S8192x4096 .f32) (XS : Arr (F := F) S8192 .f32) : Arr (F := F) S8192x4096 .bf16 :=
  truncf .bf16 (addf QX (Host.divf XOUT (rowsB XS))) bitsLt_bf16_f32

/-- The padded weight scales from the weight scales. -/
def scpOf (SC : Arr (F := F) S11008 .f32) : Arr (F := F) S11264 .f32 :=
  pad S11264 ![0] ![256] ![0] SC (id (constant S_ .f32 0x3F800000#32)) pads_S11008_S11264_02560 h_S_

/-- The quantized padded weights from the padded weights and the padded scales. -/
def qwpOf (WP : Arr (F := F) S11264x4096 .f32) (SCP : Arr (F := F) S11264 .f32) : Arr (F := F) S11264x4096 .f32 :=
  Host.roundeven (Host.divf WP
    (broadcastInDim S11264x4096 ![0, 1] bcast_S11264x1_S11264x4096_0_1
      (broadcastInDim S11264x1 ![0] bcast_S11264_S11264x1_0 SCP)))

theorem mask_eq (x : Arr (F := F) S4x2048x4096 .f32) (s : Arr (F := F) S1 .f32) : mask x s = maskOf (x2 x) (sg s) := rfl
theorem xout_eq (x : Arr (F := F) S4x2048x4096 .f32) (s : Arr (F := F) S1 .f32) : xout x s = xoutOf (mask x s) (x2 x) := rfl
theorem xin_eq (x : Arr (F := F) S4x2048x4096 .f32) (s : Arr (F := F) S1 .f32) : xin x s = xinOf (mask x s) (x2 x) := rfl
theorem xs_eq (x : Arr (F := F) S4x2048x4096 .f32) (s : Arr (F := F) S1 .f32) : xs x s = rowScale (xin x s) := rfl
theorem qx_eq (x : Arr (F := F) S4x2048x4096 .f32) (s : Arr (F := F) S1 .f32) : qx x s = qxOf (xin x s) (xs x s) := rfl
theorem aMat_eq (x : Arr (F := F) S4x2048x4096 .f32) (s : Arr (F := F) S1 .f32) :
    aMat x s = aMatOf (qx x s) (xout x s) (xs x s) := rfl
theorem scp_eq (w : Arr (F := F) S11008x4096 .f32) : scp w = scpOf (sc w) := rfl
theorem qwp_eq (w : Arr (F := F) S11008x4096 .f32) : qwp w = qwpOf (wp w) (scp w) := rfl
theorem bMat_eq (w : Arr (F := F) S11008x4096 .f32) : bMat w = truncf .bf16 (qwp w) bitsLt_bf16_f32 := rfl
theorem rsCol_eq (x : Arr (F := F) S4x2048x4096 .f32) (s : Arr (F := F) S1 .f32) :
    rsCol x s = shapeCast _ (rowScale (xin x s)) shapeCasts_S8192_S8192x1 := rfl
theorem csRow_eq (w : Arr (F := F) S11008x4096 .f32) : csRow w = shapeCast _ (scp w) shapeCasts_S11264_S1x11264 := rfl

end Shared

end Cert.Stages

end
-- ==== Proof.KerPrefix.Seg1.lean ====
/-
  The first stretch of host operations before the region, read with the contents it starts from left unknown:
  from the three arguments it computes the activation matrix, the scalar threshold, the padded weight scales and the
  quantized padded weights.
-/
import proofs.«119141_j49220325212290_2_alg».proof.Proof.Gen.KernelIdeal.Launch
import proofs.«119141_j49220325212290_2_alg».proof.Proof.StagesOf
import Idealize.ShloMosaic.Lib.StableHlo.Run

noncomputable section

namespace Cert.KerPrefix

open Cert.KernelIdeal Cert.KernelIdeal.Gen Idealize.ShloMosaic Idealize.ShloMosaic.TcCoe Idealize.SL.Sem Idealize.ShloMosaic.StableHlo
open Cert.Stages

variable {F : FTy → Type} [FloatOps F]

/-- The operations up to the quantized weights. -/
abbrev seg1 : List (HloOp τ sig (Elt F)) := hostOps0 ++ (hostOps0_1 ++ (hostOps0_2 ++ (hostOps0_3 ++ (hostOps0_4 ++ hostOps0_5))))

set_option maxRecDepth 100000 in
/-- The activation matrix. -/
theorem seg1_v0 (W : Valuation τ sig (Elt F)) :
    (after seg1 W (Proc.devRef .tc main_v0) : Arr (F := F) S8192x4096 .f32) = x2 (W (Proc.devRef .tc main_arg0)) := by
  simp only [seg1, hostOps0, hostOps0_1, hostOps0_2, hostOps0_3, hostOps0_4, hostOps0_5, List.cons_append, List.nil_append]
  after_results_simp
  try simp only [TRef.toBuf, TRef.ofBuf, cast_eq]
  try rfl

set_option maxRecDepth 100000 in
/-- The scalar threshold. -/
theorem seg1_v1 (W : Valuation τ sig (Elt F)) :
    (after seg1 W (Proc.devRef .tc main_v1) : Arr (F := F) S_ .f32) = sg (W (Proc.devRef .tc main_arg2)) := by
  simp only [seg1, hostOps0, hostOps0_1, hostOps0_2, hostOps0_3, hostOps0_4, hostOps0_5, List.cons_append, List.nil_append]
  after_results_simp
  try simp only [TRef.toBuf, TRef.ofBuf, cast_eq]
  try rfl

set_option maxRecDepth 100000 in
/-- The padded weight scales. -/
theorem seg1_v6 (W : Valuation τ sig (Elt F)) :
    (after seg1 W (Proc.devRef .tc main_v6) : Arr (F := F) S11264 .f32) = scp (W (Proc.devRef .tc main_arg1)) := by
  simp only [seg1, hostOps0, hostOps0_1, hostOps0_2, hostOps0_3, hostOps0_4, hostOps0_5, List.cons_append, List.nil_append]
  after_results_simp
  try simp only [TRef.toBuf, TRef.ofBuf, cast_eq]
  try rfl

set_option maxRecDepth 100000 in
/-- The quantized padded weights. -/
theorem seg1_v11 (W : Valuation τ sig (Elt F)) :
    (after seg1 W (Proc.devRef .tc main_v11) : Arr (F := F) S11264x4096 .f32) = qwp (W (Proc.devRef .tc main_arg1)) := by
  simp only [seg1, hostOps0, hostOps0_1, hostOps0_2, hostOps0_3, hostOps0_4, hostOps0_5, List.cons_append, List.nil_append]
  after_results_simp
  try simp only [TRef.toBuf, TRef.ofBuf, cast_eq]
  try rfl

end Cert.KerPrefix

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.KerPrefix.Seg2.lean ====
/-
  The middle stretch of host operations before the region, read with the contents it starts from left unknown:
  from the activation matrix and the threshold it computes the mask, the outlier part and the inlier part, and it
  leaves the padded weight scales and the quantized weights as they were.  (The mask is a reduction over all 8192 rows:
  it is carried through the comparison of the two sides as an unknown.)
-/
import proofs.«119141_j49220325212290_2_alg».proof.Proof.Gen.KernelIdeal.Launch
import proofs.«119141_j49220325212290_2_alg».proof.Proof.StagesOf
import Idealize.ShloMosaic.Lib.StableHlo.Run
import proofs.«119141_j49220325212290_2_alg».proof.Proof.LibTypedRef

noncomputable section

namespace Cert.KerPrefix

open Cert.KernelIdeal Cert.KernelIdeal.Gen Idealize.ShloMosaic Idealize.ShloMosaic.TcCoe Idealize.SL.Sem Idealize.ShloMosaic.StableHlo
open Cert.Stages

variable {F : FTy → Type} [FloatOps F]

/-- The operations from the mask to the inlier part. -/
abbrev seg2 : List (HloOp τ sig (Elt F)) := hostOps0_6 ++ (hostOps0_7 ++ (hostOps0_8 ++ hostOps0_9))

set_option maxRecDepth 100000 in
/-- The outlier part. -/
theorem seg2_v17 (W : Valuation τ sig (Elt F)) :
    (after seg2 W (Proc.devRef .tc main_v17) : Arr (F := F) S8192x4096 .f32) = xoutOf (maskOf (W (Proc.devRef .tc main_v0)) (W (Proc.devRef .tc main_v1))) (W (Proc.devRef .tc main_v0)) := by
  simp only [seg2, hostOps0_6, hostOps0_7, hostOps0_8, hostOps0_9, List.cons_append, List.nil_append]
  after_results_simp
  simp only [Cert.LibTypedRef.ofBuf_toBuf]
  unfold xoutOf maskBOf maskOf zeroB
  generalize Host.reduce IntOp.ori (cmpf .ogt (Host.absf (W (Proc.devRef .tc main_v0))) (broadcastInDim S8192x4096 ![] Facts₀.bcast_S_S8192x4096 (W (Proc.devRef .tc main_v1)))) (constantI S_ 1 0#1) Facts₀.reducesTo_S8192x4096_S4096_d0 Facts₀.h_S_ = M
  generalize W (Proc.devRef .tc main_v0) = X
  rfl

set_option maxRecDepth 100000 in
/-- The inlier part. -/
theorem seg2_v19 (W : Valuation τ sig (Elt F)) :
    (after seg2 W (Proc.devRef .tc main_v19) : Arr (F := F) S8192x4096 .f32) = xinOf (maskOf (W (Proc.devRef .tc main_v0)) (W (Proc.devRef .tc main_v1))) (W (Proc.devRef .tc main_v0)) := by
  simp only [seg2, hostOps0_6, hostOps0_7, hostOps0_8, hostOps0_9, List.cons_append, List.nil_append]
  after_results_simp
  simp only [Cert.LibTypedRef.ofBuf_toBuf]
  unfold xinOf maskBOf maskOf zeroB
  generalize Host.reduce IntOp.ori (cmpf .ogt (Host.absf (W (Proc.devRef .tc main_v0))) (broadcastInDim S8192x4096 ![] Facts₀.bcast_S_S8192x4096 (W (Proc.devRef .tc main_v1)))) (constantI S_ 1 0#1) Facts₀.reducesTo_S8192x4096_S4096_d0 Facts₀.h_S_ = M
  generalize W (Proc.devRef .tc main_v0) = X
  rfl

set_option maxRecDepth 100000 in
/-- The padded weight scales are kept. -/
theorem seg2_v6 (W : Valuation τ sig (Elt F)) :
    (after seg2 W (Proc.devRef .tc main_v6) : Arr (F := F) S11264 .f32) = (W (Proc.devRef .tc main_v6)) := by
  simp only [seg2, hostOps0_6, hostOps0_7, hostOps0_8, hostOps0_9, List.cons_append, List.nil_append]
  after_results_simp
  try simp only [TRef.toBuf, TRef.ofBuf, cast_eq]
  try rfl

set_option maxRecDepth 100000 in
/-- The quantized padded weights are kept. -/
theorem seg2_v11 (W : Valuation τ sig (Elt F)) :
    (after seg2 W (Proc.devRef .tc main_v11) : Arr (F := F) S11264x4096 .f32) = (W (Proc.devRef .tc main_v11)) := by
  simp only [seg2, hostOps0_6, hostOps0_7, hostOps0_8, hostOps0_9, List.cons_append, List.nil_append]
  after_results_simp
  try simp only [TRef.toBuf, TRef.ofBuf, cast_eq]
  try rfl

end Cert.KerPrefix

end
-- ==== Proof.KerPrefix.Seg3.lean ====
/-
  The last stretch of host operations before the region, read with the contents it starts from left unknown: from
  the inlier part it computes the row scales and the quantized inliers, and from them, the outlier part, the padded
  weight scales and the quantized weights, the region's four operand arrays.
-/
import proofs.«119141_j49220325212290_2_alg».proof.Proof.Gen.KernelIdeal.Launch
import proofs.«119141_j49220325212290_2_alg».proof.Proof.StagesOf
import Idealize.ShloMosaic.Lib.StableHlo.Run

noncomputable section

namespace Cert.KerPrefix

open Cert.KernelIdeal Cert.KernelIdeal.Gen Idealize.ShloMosaic Idealize.ShloMosaic.TcCoe Idealize.SL.Sem Idealize.ShloMosaic.StableHlo
open Cert.Stages

variable {F : FTy → Type} [FloatOps F]

/-- The operations from the row scales on. -/
abbrev seg3 : List (HloOp τ sig (Elt F)) := hostOps0_10 ++ (hostOps0_11 ++ hostOps0_12)

set_option maxRecDepth 100000 in
/-- The left operand. -/
theorem seg3_v34 (W : Valuation τ sig (Elt F)) :
    (after seg3 W (Proc.devRef .tc main_v34) : Arr (F := F) S8192x4096 .bf16) = aMatOf (qxOf (W (Proc.devRef .tc main_v19)) (rowScale (W (Proc.devRef .tc main_v19)))) (W (Proc.devRef .tc main_v17)) (rowScale (W (Proc.devRef .tc main_v19))) := by
  simp only [seg3, hostOps0_10, hostOps0_11, hostOps0_12, List.cons_append, List.nil_append]
  after_results_simp
  try simp only [TRef.toBuf, TRef.ofBuf, cast_eq]
  try rfl

set_option maxRecDepth 100000 in
/-- The right operand. -/
theorem seg3_v35 (W : Valuation τ sig (Elt F)) :
    (after seg3 W (Proc.devRef .tc main_v35) : Arr (F := F) S11264x4096 .bf16) = truncf .bf16 (W (Proc.devRef .tc main_v11)) Facts₀.bitsLt_bf16_f32 := by
  simp only [seg3, hostOps0_10, hostOps0_11, hostOps0_12, List.cons_append, List.nil_append]
  after_results_simp
  try simp only [TRef.toBuf, TRef.ofBuf, cast_eq]
  try rfl

set_option maxRecDepth 100000 in
/-- The row scales as a column. -/
theorem seg3_v36 (W : Valuation τ sig (Elt F)) :
    (after seg3 W (Proc.devRef .tc main_v36) : Arr (F := F) S8192x1 .f32) = shapeCast _ (rowScale (W (Proc.devRef .tc main_v19))) Facts₀.shapeCasts_S8192_S8192x1 := by
  simp only [seg3, hostOps0_10, hostOps0_11, hostOps0_12, List.cons_append, List.nil_append]
  after_results_simp
  try simp only [TRef.toBuf, TRef.ofBuf, cast_eq]
  try rfl

set_option maxRecDepth 100000 in
/-- The padded weight scales as a row. -/
theorem seg3_v37 (W : Valuation τ sig (Elt F)) :
    (after seg3 W (Proc.devRef .tc main_v37) : Arr (F := F) S1x11264 .f32) = shapeCast _ (W (Proc.devRef .tc main_v6)) Facts₀.shapeCasts_S11264_S1x11264 := by
  simp only [seg3, hostOps0_10, hostOps0_11, hostOps0_12, List.cons_append, List.nil_append]
  after_results_simp
  try simp only [TRef.toBuf, TRef.ofBuf, cast_eq]
  try rfl

end Cert.KerPrefix

end
-- ==== Proof.KerPrefix.lean ====
/-
  What the kernel's region finds in its four operand arrays: the host operations before it, taken as three
  stretches one after the other, leave there the merged left matrix, the quantized padded weights, the row scales
  as a column and the padded weight scales as a row — the stages that `Stages` names, as functions of the program's
  three arguments.
-/
import proofs.«119141_j49220325212290_2_alg».proof.Proof.Gen.KernelIdeal.Frame.Runs
import proofs.«119141_j49220325212290_2_alg».proof.Proof.KerPrefix.Seg1
import proofs.«119141_j49220325212290_2_alg».proof.Proof.KerPrefix.Seg2
import proofs.«119141_j49220325212290_2_alg».proof.Proof.KerPrefix.Seg3

noncomputable section

namespace Cert.KerPrefix

open Cert.KernelIdeal Cert.KernelIdeal.Gen Idealize.ShloMosaic Idealize.ShloMosaic.TcCoe Idealize.SL.Sem Idealize.ShloMosaic.StableHlo
open Cert.Stages

variable {F : FTy → Type} [FloatOps F]
variable (m : (ℓ : Loc nD τ sig) → Buf (Elt F) ℓ)

/-- The host operations before the region are the three stretches, one after the other. -/
theorem flatten_eq :
    (List.flatten [hostOps0, hostOps0_1, hostOps0_2, hostOps0_3, hostOps0_4, hostOps0_5, hostOps0_6, hostOps0_7, hostOps0_8, hostOps0_9, hostOps0_10, hostOps0_11, hostOps0_12] : List (HloOp τ sig (Elt F))) = seg1 ++ (seg2 ++ seg3) := by
  simp only [seg1, seg2, seg3, List.flatten_cons, List.flatten_nil, List.append_nil, List.append_assoc]

/-- The contents the region finds, as the three stretches run from the launch contents. -/
theorem V0_eq (c : Dev nD) : V0 m c = after seg3 (after seg2 (after seg1 (fun b => m (c, b)))) := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) = _
  rw [flatten_eq, after_append, after_append]

/-- The left operand array holds the merged left matrix. -/
theorem V_a (c : Dev nD) :
    (V m c main_v34 : Arr (F := F) S8192x4096 .bf16) = aMat (m ((c.tc : Thread nD τ).loc main_arg0)) (m ((c.tc : Thread nD τ).loc main_arg2)) := by
  show V0 m c (Proc.devRef .tc main_v34) = _
  rw [V0_eq, seg3_v34, seg2_v19, seg2_v17, seg1_v0, seg1_v1, aMat_eq, qx_eq, xs_eq, xout_eq, xin_eq, mask_eq]

/-- The right operand array holds the quantized padded weights. -/
theorem V_b (c : Dev nD) :
    (V m c main_v35 : Arr (F := F) S11264x4096 .bf16) = bMat (m ((c.tc : Thread nD τ).loc main_arg1)) := by
  show V0 m c (Proc.devRef .tc main_v35) = _
  rw [V0_eq, seg3_v35, seg2_v11, seg1_v11, bMat_eq]

/-- The row-scale array holds the row scales as a column. -/
theorem V_rs (c : Dev nD) :
    (V m c main_v36 : Arr (F := F) S8192x1 .f32) = rsCol (m ((c.tc : Thread nD τ).loc main_arg0)) (m ((c.tc : Thread nD τ).loc main_arg2)) := by
  show V0 m c (Proc.devRef .tc main_v36) = _
  rw [V0_eq, seg3_v36, seg2_v19, seg1_v0, seg1_v1, rsCol_eq, xin_eq, mask_eq]

/-- The column-scale array holds the padded weight scales as a row. -/
theorem V_cs (c : Dev nD) :
    (V m c main_v37 : Arr (F := F) S1x11264 .f32) = csRow (m ((c.tc : Thread nD τ).loc main_arg1)) := by
  show V0 m c (Proc.devRef .tc main_v37) = _
  rw [V0_eq, seg3_v37, seg2_v6, seg1_v6, csRow_eq]

end Cert.KerPrefix

end
-- ==== Proof.RefRun.Ops.lean ====
/-
  The reference program's host operations, in order, cut into five consecutive stretches: the weight scales and the
  quantized weights; the outlier mask; the outlier and inlier parts of the activations; the dequantized outlier
  weights, the inlier quantized weights and the outlier product; the row scales, the quantized inliers, the quantized
  product, its scaling and the sum.
-/
import proofs.«119141_j49220325212290_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–12: the activation matrix, the scalar threshold, the weight scales and the quantized weights. -/
abbrev r1 : List (HloOp τ sig (Elt F)) :=
  [ reshape main_arg0 main_v0 rfl shapeCasts_S4x2048x4096_S8192x4096,
    reshape main_arg2 main_v1 rfl shapeCasts_S1_S_,
    unary main_arg1 main_v2 (Host.absf : (⟨S11008x4096, .f32⟩ : BufTy).Contents (Elt F) → (⟨S11008x4096, .f32⟩ : BufTy).Contents (Elt F)),
    nullary main_cst (constant S_ .f32 0xFF800000#32),
    binary main_v2 main_cst main_v3 ((fun x v => Host.reduce FloatOps.maximumf x v reducesTo_S11008x4096_S11008_d1 h_S_) : (⟨S11008x4096, .f32⟩ : BufTy).Contents (Elt F) → (⟨S_, .f32⟩ : BufTy).Contents (Elt F) → (⟨S11008, .f32⟩ : BufTy).Contents (Elt F)),
    nullary main_cst_0 (constant S_ .f32 0x42800000#32),
    unary main_cst_0 main_v4 (broadcastInDim S11008 ![] bcast_S_S11008 : (⟨S_, .f32⟩ : BufTy).Contents (Elt F) → (⟨S11008, .f32⟩ : BufTy).Contents (Elt F)),
    binary main_v3 main_v4 main_v5 (Host.divf : (⟨S11008, .f32⟩ : BufTy).Contents (Elt F) → (⟨S11008, .f32⟩ : BufTy).Contents (Elt F) → (⟨S11008, .f32⟩ : BufTy).Contents (Elt F)),
    unary main_v5 main_v6 (broadcastInDim S11008x1 ![0] bcast_S11008_S11008x1_0 : (⟨S11008, .f32⟩ : BufTy).Contents (Elt F) → (⟨S11008x1, .f32⟩ : BufTy).Contents (Elt F)),
    unary main_v6 main_v7 (broadcastInDim S11008x4096 ![0, 1] bcast_S11008x1_S11008x4096_0_1 : (⟨S11008x1, .f32⟩ : BufTy).Contents (Elt F) → (⟨S11008x4096, .f32⟩ : BufTy).Contents (Elt F)),
    binary main_arg1 main_v7 main_v8 (Host.divf : (⟨S11008x4096, .f32⟩ : BufTy).Contents (Elt F) → (⟨S11008x4096, .f32⟩ : BufTy).Contents (Elt F) → (⟨S11008x4096, .f32⟩ : BufTy).Contents (Elt F)),
    TRef.unary (TRef.of (T := ⟨S11008x4096, .f32⟩) main_v8) (TRef.of (T := ⟨S11008x4096, .f32⟩) main_v9) Host.roundeven ]

/-- Operations 13–17: the outlier mask. -/
abbrev r2 : List (HloOp τ sig (Elt F)) :=
  [ unary main_v0 main_v10 (Host.absf : (⟨S8192x4096, .f32⟩ : BufTy).Contents (Elt F) → (⟨S8192x4096, .f32⟩ : BufTy).Contents (Elt F)),
    unary main_v1 main_v11 (broadcastInDim S8192x4096 ![] bcast_S_S8192x4096 : (⟨S_, .f32⟩ : BufTy).Contents (Elt F) → (⟨S8192x4096, .f32⟩ : BufTy).Contents (Elt F)),
    binary main_v10 main_v11 main_v12 (cmpf .ogt : (⟨S8192x4096, .f32⟩ : BufTy).Contents (Elt F) → (⟨S8192x4096, .f32⟩ : BufTy).Contents (Elt F) → (⟨S8192x4096, .i1⟩ : BufTy).Contents (Elt F)),
    nullary main_c (constantI S_ 1 0#1),
    binary main_v12 main_c main_v13 ((fun x v => Host.reduce IntOp.ori x v reducesTo_S8192x4096_S4096_d0 h_S_) : (⟨S8192x4096, .i1⟩ : BufTy).Contents (Elt F) → (⟨S_, .i1⟩ : BufTy).Contents (Elt F) → (⟨S4096, .i1⟩ : BufTy).Contents (Elt F)) ]

/-- Operations 18–29: the outlier part and the inlier part. -/
abbrev r3 : List (HloOp τ sig (Elt F)) :=
  [ unary main_v13 main_v14 (broadcastInDim S1x4096 ![1] bcast_S4096_S1x4096_1 : (⟨S4096, .i1⟩ : BufTy).Contents (Elt F) → (⟨S1x4096, .i1⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S1x4096, .i1⟩) main_v14) (TRef.of (T := ⟨S8192x4096, .i1⟩) main_call1_v1) (broadcastInDim S8192x4096 ![0, 1] bcast_S1x4096_S8192x4096_0_1),
    TRef.unary (TRef.of (T := ⟨S_, .f32⟩) main_call1_v0) (TRef.of (T := ⟨S8192x4096, .f32⟩) main_call1_v2) (broadcastInDim S8192x4096 ![] bcast_S_S8192x4096),
    TRef.ternary (TRef.of (T := ⟨S8192x4096, .i1⟩) main_call1_v1) (TRef.of (T := ⟨S8192x4096, .f32⟩) main_v0) (TRef.of (T := ⟨S8192x4096, .f32⟩) main_call1_v2) (TRef.of (T := ⟨S8192x4096, .f32⟩) main_v15) select,
    unary main_v13 main_v16 (broadcastInDim S1x4096 ![1] bcast_S4096_S1x4096_1 : (⟨S4096, .i1⟩ : BufTy).Contents (Elt F) → (⟨S1x4096, .i1⟩ : BufTy).Contents (Elt F)),
    nullary main_cst_2 (constant S_ .f32 0x00000000#32),
    TRef.unary (TRef.of (T := ⟨S_, .f32⟩) main_cst_2) (TRef.of (T := ⟨S_, .f32⟩) main_call2_v0) id,
    TRef.unary (TRef.of (T := ⟨S1x4096, .i1⟩) main_v16) (TRef.of (T := ⟨S8192x4096, .i1⟩) main_call2_v1) (broadcastInDim S8192x4096 ![0, 1] bcast_S1x4096_S8192x4096_0_1),
    TRef.unary (TRef.of (T := ⟨S_, .f32⟩) main_call2_v0) (TRef.of (T := ⟨S8192x4096, .f32⟩) main_call2_v2) (broadcastInDim S8192x4096 ![] bcast_S_S8192x4096),
    TRef.ternary (TRef.of (T := ⟨S8192x4096, .i1⟩) main_call2_v1) (TRef.of (T := ⟨S8192x4096, .f32⟩) main_call2_v2) (TRef.of (T := ⟨S8192x4096, .f32⟩) main_v0) (TRef.of (T := ⟨S8192x4096, .f32⟩) main_v17) select ]

/-- Operations 30–44: the dequantized outlier weights, the inlier quantized weights and the outlier product. -/
abbrev r4 : List (HloOp τ sig (Elt F)) :=
  [ unary main_v5 main_v18 (broadcastInDim S11008x1 ![0] bcast_S11008_S11008x1_0 : (⟨S11008, .f32⟩ : BufTy).Contents (Elt F) → (⟨S11008x1, .f32⟩ : BufTy).Contents (Elt F)),
    unary main_v18 main_v19 (broadcastInDim S11008x4096 ![0, 1] bcast_S11008x1_S11008x4096_0_1 : (⟨S11008x1, .f32⟩ : BufTy).Contents (Elt F) → (⟨S11008x4096, .f32⟩ : BufTy).Contents (Elt F)),
    binary main_v9 main_v19 main_v20 (mulf : (⟨S11008x4096, .f32⟩ : BufTy).Contents (Elt F) → (⟨S11008x4096, .f32⟩ : BufTy).Contents (Elt F) → (⟨S11008x4096, .f32⟩ : BufTy).Contents (Elt F)),
    unary main_v13 main_v21 (broadcastInDim S1x4096 ![1] bcast_S4096_S1x4096_1 : (⟨S4096, .i1⟩ : BufTy).Contents (Elt F) → (⟨S1x4096, .i1⟩ : BufTy).Contents (Elt F)),
    unary main_v21 main_v22 (uitofp .f32 : (⟨S1x4096, .i1⟩ : BufTy).Contents (Elt F) → (⟨S1x4096, .f32⟩ : BufTy).Contents (Elt F)),
    unary main_v22 main_v23 (broadcastInDim S11008x4096 ![0, 1] bcast_S1x4096_S11008x4096_0_1 : (⟨S1x4096, .f32⟩ : BufTy).Contents (Elt F) → (⟨S11008x4096, .f32⟩ : BufTy).Contents (Elt F)),
    binary main_v20 main_v23 main_v24 (mulf : (⟨S11008x4096, .f32⟩ : BufTy).Contents (Elt F) → (⟨S11008x4096, .f32⟩ : BufTy).Contents (Elt F) → (⟨S11008x4096, .f32⟩ : BufTy).Contents (Elt F)),
    unary main_v13 main_v25 (broadcastInDim S1x4096 ![1] bcast_S4096_S1x4096_1 : (⟨S4096, .i1⟩ : BufTy).Contents (Elt F) → (⟨S1x4096, .i1⟩ : BufTy).Contents (Elt F)),
    nullary main_cst_3 (constant S_ .f32 0x00000000#32),
    TRef.unary (TRef.of (T := ⟨S_, .f32⟩) main_cst_3) (TRef.of (T := ⟨S_, .f32⟩) main_call3_v0) id,
    TRef.unary (TRef.of (T := ⟨S1x4096, .i1⟩) main_v25) (TRef.of (T := ⟨S11008x4096, .i1⟩) main_call3_v1) (broadcastInDim S11008x4096 ![0, 1] bcast_S1x4096_S11008x4096_0_1),
    TRef.unary (TRef.of (T := ⟨S_, .f32⟩) main_call3_v0) (TRef.of (T := ⟨S11008x4096, .f32⟩) main_call3_v2) (broadcastInDim S11008x4096 ![] bcast_S_S11008x4096),
    TRef.ternary (TRef.of (T := ⟨S11008x4096, .i1⟩) main_call3_v1) (TRef.of (T := ⟨S11008x4096, .f32⟩) main_call3_v2) (TRef.of (T := ⟨S11008x4096, .f32⟩) main_v9) (TRef.of (T := ⟨S11008x4096, .f32⟩) main_v26) select,
    unary main_v24 main_v27 ((transpose S4096x11008 [1, 0] · transposes_S11008x4096_S4096x11008_1_0) : (⟨S11008x4096, .f32⟩ : BufTy).Contents (Elt F) → (⟨S4096x11008, .f32⟩ : BufTy).Contents (Elt F)),
    binary main_v15 main_v27 main_v28 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)) ]

/-- Operations 45–67: the row scales, the quantized inliers, the quantized product, its scaling, the sum and the
    recast. -/
abbrev r5 : List (HloOp τ sig (Elt F)) :=
  [ unary main_v17 main_v29 (Host.absf : (⟨S8192x4096, .f32⟩ : BufTy).Contents (Elt F) → (⟨S8192x4096, .f32⟩ : BufTy).Contents (Elt F)),
    nullary main_cst_4 (constant S_ .f32 0xFF800000#32),
    binary main_v29 main_cst_4 main_v30 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    nullary main_cst_5 (constant S_ .f32 0x42FE0000#32),
    unary main_cst_5 main_v31 (broadcastInDim S8192 ![] bcast_S_S8192 : (⟨S_, .f32⟩ : BufTy).Contents (Elt F) → (⟨S8192, .f32⟩ : BufTy).Contents (Elt F)),
    binary main_v30 main_v31 main_v32 (Host.divf : (⟨S8192, .f32⟩ : BufTy).Contents (Elt F) → (⟨S8192, .f32⟩ : BufTy).Contents (Elt F) → (⟨S8192, .f32⟩ : BufTy).Contents (Elt F)),
    nullary main_cst_6 (constant S_ .f32 0x322BCC77#32),
    unary main_cst_6 main_v33 (broadcastInDim S8192 ![] bcast_S_S8192 : (⟨S_, .f32⟩ : BufTy).Contents (Elt F) → (⟨S8192, .f32⟩ : BufTy).Contents (Elt F)),
    binary main_v32 main_v33 main_v34 (maximumf : (⟨S8192, .f32⟩ : BufTy).Contents (Elt F) → (⟨S8192, .f32⟩ : BufTy).Contents (Elt F) → (⟨S8192, .f32⟩ : BufTy).Contents (Elt F)),
    unary main_v34 main_v35 (broadcastInDim S8192x1 ![0] bcast_S8192_S8192x1_0 : (⟨S8192, .f32⟩ : BufTy).Contents (Elt F) → (⟨S8192x1, .f32⟩ : BufTy).Contents (Elt F)),
    unary main_v35 main_v36 (broadcastInDim S8192x4096 ![0, 1] bcast_S8192x1_S8192x4096_0_1 : (⟨S8192x1, .f32⟩ : BufTy).Contents (Elt F) → (⟨S8192x4096, .f32⟩ : BufTy).Contents (Elt F)),
    binary main_v17 main_v36 main_v37 (Host.divf : (⟨S8192x4096, .f32⟩ : BufTy).Contents (Elt F) → (⟨S8192x4096, .f32⟩ : BufTy).Contents (Elt F) → (⟨S8192x4096, .f32⟩ : BufTy).Contents (Elt F)),
    TRef.unary (TRef.of (T := ⟨S8192x4096, .f32⟩) main_v37) (TRef.of (T := ⟨S8192x4096, .f32⟩) main_v38) Host.roundeven,
    unary main_v26 main_v39 ((transpose S4096x11008 [1, 0] · transposes_S11008x4096_S4096x11008_1_0) : (⟨S11008x4096, .f32⟩ : BufTy).Contents (Elt F) → (⟨S4096x11008, .f32⟩ : BufTy).Contents (Elt F)),
    binary main_v38 main_v39 main_v40 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    unary main_v34 main_v41 (broadcastInDim S8192x1 ![0] bcast_S8192_S8192x1_0 : (⟨S8192, .f32⟩ : BufTy).Contents (Elt F) → (⟨S8192x1, .f32⟩ : BufTy).Contents (Elt F)),
    unary main_v41 main_v42 (broadcastInDim S8192x11008 ![0, 1] bcast_S8192x1_S8192x11008_0_1 : (⟨S8192x1, .f32⟩ : BufTy).Contents (Elt F) → (⟨S8192x11008, .f32⟩ : BufTy).Contents (Elt F)),
    binary main_v40 main_v42 main_v43 (mulf : (⟨S8192x11008, .f32⟩ : BufTy).Contents (Elt F) → (⟨S8192x11008, .f32⟩ : BufTy).Contents (Elt F) → (⟨S8192x11008, .f32⟩ : BufTy).Contents (Elt F)),
    unary main_v5 main_v44 (broadcastInDim S1x11008 ![1] bcast_S11008_S1x11008_1 : (⟨S11008, .f32⟩ : BufTy).Contents (Elt F) → (⟨S1x11008, .f32⟩ : BufTy).Contents (Elt F)),
    unary main_v44 main_v45 (broadcastInDim S8192x11008 ![0, 1] bcast_S1x11008_S8192x11008_0_1 : (⟨S1x11008, .f32⟩ : BufTy).Contents (Elt F) → (⟨S8192x11008, .f32⟩ : BufTy).Contents (Elt F)),
    binary main_v43 main_v45 main_v46 (mulf : (⟨S8192x11008, .f32⟩ : BufTy).Contents (Elt F) → (⟨S8192x11008, .f32⟩ : BufTy).Contents (Elt F) → (⟨S8192x11008, .f32⟩ : BufTy).Contents (Elt F)),
    binary main_v46 main_v28 main_v47 (addf : (⟨S8192x11008, .f32⟩ : BufTy).Contents (Elt F) → (⟨S8192x11008, .f32⟩ : BufTy).Contents (Elt F) → (⟨S8192x11008, .f32⟩ : BufTy).Contents (Elt F)),
    reshape main_v47 main_v48 rfl shapeCasts_S8192x11008_S4x2048x11008 ]

/-- @main's 67 operations, in order (a called function's operations stand in its call's place, spelt `TRef.…`). -/
abbrev ops : List (HloOp τ sig (Elt F)) := r1 ++ (r2 ++ (r3 ++ (r4 ++ r5)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem r1_sub : (r1 : List (HloOp τ sig (Elt F))).Forall fun op => op.bufs ⊆ tcRefs τ sig :=
  ⟨reshape_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub ..⟩
theorem r2_sub : (r2 : List (HloOp τ sig (Elt F))).Forall fun op => op.bufs ⊆ tcRefs τ sig :=
  ⟨unary_bufs_sub .., unary_bufs_sub .., binary_bufs_sub .., nullary_bufs_sub .., binary_bufs_sub ..⟩
theorem r3_sub : (r3 : List (HloOp τ sig (Elt F))).Forall fun op => op.bufs ⊆ tcRefs τ sig :=
  ⟨unary_bufs_sub .., nullary_bufs_sub .., unary_bufs_sub .., unary_bufs_sub .., unary_bufs_sub .., ternary_bufs_sub .., unary_bufs_sub .., nullary_bufs_sub .., unary_bufs_sub .., unary_bufs_sub .., unary_bufs_sub .., ternary_bufs_sub ..⟩
theorem r4_sub : (r4 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., nullary_bufs_sub .., unary_bufs_sub .., unary_bufs_sub .., unary_bufs_sub .., ternary_bufs_sub .., unary_bufs_sub .., binary_bufs_sub ..⟩
theorem r5_sub : (r5 : List (HloOp τ sig (Elt F))).Forall fun op => op.bufs ⊆ tcRefs τ sig :=
  ⟨unary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., reshape_bufs_sub ..⟩

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at h₁ h₂ ⊢
  intro a ha
  rcases List.mem_append.1 ha with h | h
  exacts [h₁ a h, h₂ a h]

theorem ops_sub : (ops : List (HloOp τ sig (Elt F))).Forall fun op => op.bufs ⊆ tcRefs τ sig :=
  forall_append r1_sub (forall_append r2_sub (forall_append r3_sub (forall_append r4_sub r5_sub)))

end Cert.RefRun

end
-- ==== Proof.StagesOfRef.lean ====
/-
  The reference's own stages, each as a function of the stages it is computed from (rather than of the program's
  arguments), so that a stretch of host operations can be read with its inputs left as unknowns.
-/
import proofs.«119141_j49220325212290_2_alg».proof.Proof.Stages

noncomputable section

namespace Cert.Stages

open Idealize.ShloMosaic

variable {F : FTy → Type} [FloatOps F]

section ReferenceOnly
open Cert.ReferenceIdeal Cert.ReferenceIdeal.Facts₀

/-- A vector of 11008 row values repeated along the 4096 columns. -/
def scBOf (SC : Arr (F := F) S11008 .f32) : Arr (F := F) S11008x4096 .f32 :=
  broadcastInDim S11008x4096 ![0, 1] bcast_S11008x1_S11008x4096_0_1
    (broadcastInDim S11008x1 ![0] bcast_S11008_S11008x1_0 SC)

/-- The quantized weights from the weights and the weight scales. -/
def qwOf (W : Arr (F := F) S11008x4096 .f32) (SC : Arr (F := F) S11008 .f32) : Arr (F := F) S11008x4096 .f32 :=
  Host.roundeven (Host.divf W (scBOf SC))

/-- A mask as a row. -/
def maskRowOf (M : Arr (F := F) S4096 .i1) : Arr (F := F) S1x4096 .i1 :=
  broadcastInDim S1x4096 ![1] bcast_S4096_S1x4096_1 M

/-- The dequantized weights on the outlier columns from the quantized weights, the weight scales and the mask. -/
def wdqOf (QW : Arr (F := F) S11008x4096 .f32) (SC : Arr (F := F) S11008 .f32) (M : Arr (F := F) S4096 .i1) :
    Arr (F := F) S11008x4096 .f32 :=
  mulf (mulf QW (scBOf SC))
    (broadcastInDim S11008x4096 ![0, 1] bcast_S1x4096_S11008x4096_0_1 (uitofp .f32 (maskRowOf M)))

/-- The quantized weights on the inlier columns from the mask and the quantized weights. -/
def qwinOf (M : Arr (F := F) S4096 .i1) (QW : Arr (F := F) S11008x4096 .f32) : Arr (F := F) S11008x4096 .f32 :=
  select (broadcastInDim S11008x4096 ![0, 1] bcast_S1x4096_S11008x4096_0_1 (maskRowOf M))
    (broadcastInDim S11008x4096 ![] bcast_S_S11008x4096 (id (constant S_ .f32 0x00000000#32))) QW

/-- The product of an 8192 × 4096 matrix with the transpose of an 11008 × 4096 matrix. -/
def prodOf (L : Arr (F := F) S8192x4096 .f32) (T : Arr (F := F) S11008x4096 .f32) : Arr (F := F) S8192x11008 .f32 :=
  Host.dotGeneral dot_S8192x4096_S4096x11008_S8192x11008_1_0_0_1_n_n none L
    (transpose S4096x11008 [1, 0] T transposes_S11008x4096_S4096x11008_1_0)

/-- The reference's matrix from the quantized product, the row scales, the weight scales and the outlier product. -/
def yrefOf (DQ : Arr (F := F) S8192x11008 .f32) (XS : Arr (F := F) S8192 .f32) (SC : Arr (F := F) S11008 .f32)
    (OUTL : Arr (F := F) S8192x11008 .f32) : Arr (F := F) S8192x11008 .f32 :=
  addf
    (mulf
      (mulf DQ
        (broadcastInDim S8192x11008 ![0, 1] bcast_S8192x1_S8192x11008_0_1
          (broadcastInDim S8192x1 ![0] bcast_S8192_S8192x1_0 XS)))
      (broadcastInDim S8192x11008 ![0, 1] bcast_S1x11008_S8192x11008_0_1
        (broadcastInDim S1x11008 ![1] bcast_S11008_S1x11008_1 SC)))
    OUTL

/-- The reference's result from its matrix. -/
def refResultOf (Y : Arr (F := F) S8192x11008 .f32) : Arr (F := F) S4x2048x11008 .f32 :=
  shapeCast _ Y shapeCasts_S8192x11008_S4x2048x11008

variable (x : Arr (F := F) S4x2048x4096 .f32) (w : Arr (F := F) S11008x4096 .f32) (s : Arr (F := F) S1 .f32)

theorem scB_eq : scB w = scBOf (sc w) := rfl
theorem qw_eq : qw w = qwOf w (sc w) := rfl
theorem wdq_eq : wdq x w s = wdqOf (qw w) (sc w) (mask x s) := rfl
theorem qwin_eq : qwin x w s = qwinOf (mask x s) (qw w) := rfl
theorem outl_eq : outl x w s = prodOf (xout x s) (wdq x w s) := rfl
theorem dq_eq : dq x w s = prodOf (qx x s) (qwin x w s) := rfl
theorem yref_eq : yref x w s = yrefOf (dq x w s) (xs x s) (sc w) (outl x w s) := rfl
theorem refResult_eq : refResult x w s = refResultOf (yref x w s) := rfl

end ReferenceOnly

end Cert.Stages

end
-- ==== Proof.RefRun.Seg1.lean ====
/-
  The first stretch of the reference's host operations, read with the contents it starts from left unknown: from the
  three arguments it computes the activation matrix, the scalar threshold, the weight scales and the quantized
  weights.
-/
import proofs.«119141_j49220325212290_2_alg».proof.Proof.RefRun.Ops
import proofs.«119141_j49220325212290_2_alg».proof.Proof.StagesOf
import proofs.«119141_j49220325212290_2_alg».proof.Proof.StagesOfRef

noncomputable section

namespace Cert.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

set_option maxRecDepth 100000 in
/-- The activation matrix. -/
theorem r1_v0 (W : Valuation τ sig (Elt F)) :
    (after r1 W (Proc.devRef .tc main_v0) : Arr (F := F) S8192x4096 .f32) = x2 (W (Proc.devRef .tc main_arg0)) := by
  simp only [r1]
  after_results_simp
  try simp only [TRef.toBuf, TRef.ofBuf, cast_eq]
  try rfl

set_option maxRecDepth 100000 in
/-- The scalar threshold. -/
theorem r1_v1 (W : Valuation τ sig (Elt F)) :
    (after r1 W (Proc.devRef .tc main_v1) : Arr (F := F) S_ .f32) = sg (W (Proc.devRef .tc main_arg2)) := by
  simp only [r1]
  after_results_simp
  try simp only [TRef.toBuf, TRef.ofBuf, cast_eq]
  try rfl

set_option maxRecDepth 100000 in
/-- The weight scales. -/
theorem r1_v5 (W : Valuation τ sig (Elt F)) :
    (after r1 W (Proc.devRef .tc main_v5) : Arr (F := F) S11008 .f32) = sc (W (Proc.devRef .tc main_arg1)) := by
  simp only [r1]
  after_results_simp
  try simp only [TRef.toBuf, TRef.ofBuf, cast_eq]
  try rfl

set_option maxRecDepth 100000 in
/-- The quantized weights. -/
theorem r1_v9 (W : Valuation τ sig (Elt F)) :
    (after r1 W (Proc.devRef .tc main_v9) : Arr (F := F) S11008x4096 .f32) = qw (W (Proc.devRef .tc main_arg1)) := by
  simp only [r1]
  after_results_simp
  try simp only [TRef.toBuf, TRef.ofBuf, cast_eq]
  try rfl

set_option maxRecDepth 100000 in
/-- The activations' array is not written. -/
theorem r1_arg0 (W : Valuation τ sig (Elt F)) :
    (after r1 W (Proc.devRef .tc main_arg0) : Arr (F := F) S4x2048x4096 .f32) = W (Proc.devRef .tc main_arg0) := by
  simp only [r1]
  after_results_simp
  try simp only [TRef.toBuf, TRef.ofBuf, cast_eq]
  try rfl

set_option maxRecDepth 100000 in
/-- The weights' array is not written. -/
theorem r1_arg1 (W : Valuation τ sig (Elt F)) :
    (after r1 W (Proc.devRef .tc main_arg1) : Arr (F := F) S11008x4096 .f32) = W (Proc.devRef .tc main_arg1) := by
  simp only [r1]
  after_results_simp
  try simp only [TRef.toBuf, TRef.ofBuf, cast_eq]
  try rfl

set_option maxRecDepth 100000 in
/-- The threshold's array is not written. -/
theorem r1_arg2 (W : Valuation τ sig (Elt F)) :
    (after r1 W (Proc.devRef .tc main_arg2) : Arr (F := F) S1 .f32) = W (Proc.devRef .tc main_arg2) := by
  simp only [r1]
  after_results_simp
  try simp only [TRef.toBuf, TRef.ofBuf, cast_eq]
  try rfl

end Cert.RefRun

end
-- ==== Proof.RefRun.Seg2.lean ====
/-
  The second stretch, read with the contents it starts from left unknown: from the activation matrix and the scalar
  threshold it computes the outlier mask.
-/
import proofs.«119141_j49220325212290_2_alg».proof.Proof.RefRun.Ops
import proofs.«119141_j49220325212290_2_alg».proof.Proof.StagesOf
import proofs.«119141_j49220325212290_2_alg».proof.Proof.StagesOfRef

noncomputable section

namespace Cert.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

set_option maxRecDepth 100000 in
/-- The outlier mask. -/
theorem r2_v13 (W : Valuation τ sig (Elt F)) :
    (after r2 W (Proc.devRef .tc main_v13) : Arr (F := F) S4096 .i1) = maskOf (W (Proc.devRef .tc main_v0)) (W (Proc.devRef .tc main_v1)) := by
  simp only [r2]
  after_results_simp
  try simp only [TRef.toBuf, TRef.ofBuf, cast_eq]
  try rfl

set_option maxRecDepth 100000 in
/-- The activation matrix's array is not written. -/
theorem r2_v0 (W : Valuation τ sig (Elt F)) :
    (after r2 W (Proc.devRef .tc main_v0) : Arr (F := F) S8192x4096 .f32) = W (Proc.devRef .tc main_v0) := by
  simp only [r2]
  after_results_simp
  try simp only [TRef.toBuf, TRef.ofBuf, cast_eq]
  try rfl

set_option maxRecDepth 100000 in
/-- The weight scales' array is not written. -/
theorem r2_v5 (W : Valuation τ sig (Elt F)) :
    (after r2 W (Proc.devRef .tc main_v5) : Arr (F := F) S11008 .f32) = W (Proc.devRef .tc main_v5) := by
  simp only [r2]
  after_results_simp
  try simp only [TRef.toBuf, TRef.ofBuf, cast_eq]
  try rfl

set_option maxRecDepth 100000 in
/-- The quantized weights' array is not written. -/
theorem r2_v9 (W : Valuation τ sig (Elt F)) :
    (after r2 W (Proc.devRef .tc main_v9) : Arr (F := F) S11008x4096 .f32) = W (Proc.devRef .tc main_v9) := by
  simp only [r2]
  after_results_simp
  try simp only [TRef.toBuf, TRef.ofBuf, cast_eq]
  try rfl

set_option maxRecDepth 100000 in
/-- The activations' array is not written. -/
theorem r2_arg0 (W : Valuation τ sig (Elt F)) :
    (after r2 W (Proc.devRef .tc main_arg0) : Arr (F := F) S4x2048x4096 .f32) = W (Proc.devRef .tc main_arg0) := by
  simp only [r2]
  after_results_simp
  try simp only [TRef.toBuf, TRef.ofBuf, cast_eq]
  try rfl

set_option maxRecDepth 100000 in
/-- The weights' array is not written. -/
theorem r2_arg1 (W : Valuation τ sig (Elt F)) :
    (after r2 W (Proc.devRef .tc main_arg1) : Arr (F := F) S11008x4096 .f32) = W (Proc.devRef .tc main_arg1) := by
  simp only [r2]
  after_results_simp
  try simp only [TRef.toBuf, TRef.ofBuf, cast_eq]
  try rfl

set_option maxRecDepth 100000 in
/-- The threshold's array is not written. -/
theorem r2_arg2 (W : Valuation τ sig (Elt F)) :
    (after r2 W (Proc.devRef .tc main_arg2) : Arr (F := F) S1 .f32) = W (Proc.devRef .tc main_arg2) := by
  simp only [r2]
  after_results_simp
  try simp only [TRef.toBuf, TRef.ofBuf, cast_eq]
  try rfl

end Cert.RefRun

end
-- ==== Proof.RefRun.Seg3.lean ====
/-
  The third stretch, read with the contents it starts from left unknown: from the outlier mask and the activation
  matrix it computes the outlier part and the inlier part.
-/
import proofs.«119141_j49220325212290_2_alg».proof.Proof.RefRun.Ops
import proofs.«119141_j49220325212290_2_alg».proof.Proof.StagesOf
import proofs.«119141_j49220325212290_2_alg».proof.Proof.StagesOfRef

noncomputable section

namespace Cert.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

set_option maxRecDepth 100000 in
/-- The outlier part. -/
theorem r3_v15 (W : Valuation τ sig (Elt F)) :
    (after r3 W (Proc.devRef .tc main_v15) : Arr (F := F) S8192x4096 .f32) = xoutOf (W (Proc.devRef .tc main_v13)) (W (Proc.devRef .tc main_v0)) := by
  simp only [r3]
  after_results_simp
  try simp only [TRef.toBuf, TRef.ofBuf, cast_eq]
  try rfl

set_option maxRecDepth 100000 in
/-- The inlier part. -/
theorem r3_v17 (W : Valuation τ sig (Elt F)) :
    (after r3 W (Proc.devRef .tc main_v17) : Arr (F := F) S8192x4096 .f32) = xinOf (W (Proc.devRef .tc main_v13)) (W (Proc.devRef .tc main_v0)) := by
  simp only [r3]
  after_results_simp
  try simp only [TRef.toBuf, TRef.ofBuf, cast_eq]
  try rfl

set_option maxRecDepth 100000 in
/-- The mask's array is not written. -/
theorem r3_v13 (W : Valuation τ sig (Elt F)) :
    (after r3 W (Proc.devRef .tc main_v13) : Arr (F := F) S4096 .i1) = W (Proc.devRef .tc main_v13) := by
  simp only [r3]
  after_results_simp
  try simp only [TRef.toBuf, TRef.ofBuf, cast_eq]
  try rfl

set_option maxRecDepth 100000 in
/-- The weight scales' array is not written. -/
theorem r3_v5 (W : Valuation τ sig (Elt F)) :
    (after r3 W (Proc.devRef .tc main_v5) : Arr (F := F) S11008 .f32) = W (Proc.devRef .tc main_v5) := by
  simp only [r3]
  after_results_simp
  try simp only [TRef.toBuf, TRef.ofBuf, cast_eq]
  try rfl

set_option maxRecDepth 100000 in
/-- The quantized weights' array is not written. -/
theorem r3_v9 (W : Valuation τ sig (Elt F)) :
    (after r3 W (Proc.devRef .tc main_v9) : Arr (F := F) S11008x4096 .f32) = W (Proc.devRef .tc main_v9) := by
  simp only [r3]
  after_results_simp
  try simp only [TRef.toBuf, TRef.ofBuf, cast_eq]
  try rfl

set_option maxRecDepth 100000 in
/-- The activations' array is not written. -/
theorem r3_arg0 (W : Valuation τ sig (Elt F)) :
    (after r3 W (Proc.devRef .tc main_arg0) : Arr (F := F) S4x2048x4096 .f32) = W (Proc.devRef .tc main_arg0) := by
  simp only [r3]
  after_results_simp
  try simp only [TRef.toBuf, TRef.ofBuf, cast_eq]
  try rfl

set_option maxRecDepth 100000 in
/-- The weights' array is not written. -/
theorem r3_arg1 (W : Valuation τ sig (Elt F)) :
    (after r3 W (Proc.devRef .tc main_arg1) : Arr (F := F) S11008x4096 .f32) = W (Proc.devRef .tc main_arg1) := by
  simp only [r3]
  after_results_simp
  try simp only [TRef.toBuf, TRef.ofBuf, cast_eq]
  try rfl

set_option maxRecDepth 100000 in
/-- The threshold's array is not written. -/
theorem r3_arg2 (W : Valuation τ sig (Elt F)) :
    (after r3 W (Proc.devRef .tc main_arg2) : Arr (F := F) S1 .f32) = W (Proc.devRef .tc main_arg2) := by
  simp only [r3]
  after_results_simp
  try simp only [TRef.toBuf, TRef.ofBuf, cast_eq]
  try rfl

end Cert.RefRun

end
-- ==== Proof.RefRun.Seg4.lean ====
/-
  The fourth stretch, read with the contents it starts from left unknown: from the weight scales, the quantized
  weights, the mask and the outlier part it computes the inlier quantized weights and the outlier product.
-/
import proofs.«119141_j49220325212290_2_alg».proof.Proof.RefRun.Ops
import proofs.«119141_j49220325212290_2_alg».proof.Proof.StagesOf
import proofs.«119141_j49220325212290_2_alg».proof.Proof.StagesOfRef

noncomputable section

namespace Cert.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

set_option maxRecDepth 100000 in
/-- The inlier quantized weights. -/
theorem r4_v26 (W : Valuation τ sig (Elt F)) :
    (after r4 W (Proc.devRef .tc main_v26) : Arr (F := F) S11008x4096 .f32) = qwinOf (W (Proc.devRef .tc main_v13)) (W (Proc.devRef .tc main_v9)) := by
  simp only [r4]
  after_results_simp
  try simp only [TRef.toBuf, TRef.ofBuf, cast_eq]
  try rfl

set_option maxRecDepth 100000 in
/-- The outlier product. -/
theorem r4_v28 (W : Valuation τ sig (Elt F)) :
    (after r4 W (Proc.devRef .tc main_v28) : Arr (F := F) S8192x11008 .f32) = prodOf (W (Proc.devRef .tc main_v15)) (wdqOf (W (Proc.devRef .tc main_v9)) (W (Proc.devRef .tc main_v5)) (W (Proc.devRef .tc main_v13))) := by
  simp only [r4]
  after_results_simp
  try simp only [TRef.toBuf, TRef.ofBuf, cast_eq]
  try rfl

set_option maxRecDepth 100000 in
/-- The inlier part's array is not written. -/
theorem r4_v17 (W : Valuation τ sig (Elt F)) :
    (after r4 W (Proc.devRef .tc main_v17) : Arr (F := F) S8192x4096 .f32) = W (Proc.devRef .tc main_v17) := by
  simp only [r4]
  after_results_simp
  try simp only [TRef.toBuf, TRef.ofBuf, cast_eq]
  try rfl

set_option maxRecDepth 100000 in
/-- The weight scales' array is not written. -/
theorem r4_v5 (W : Valuation τ sig (Elt F)) :
    (after r4 W (Proc.devRef .tc main_v5) : Arr (F := F) S11008 .f32) = W (Proc.devRef .tc main_v5) := by
  simp only [r4]
  after_results_simp
  try simp only [TRef.toBuf, TRef.ofBuf, cast_eq]
  try rfl

set_option maxRecDepth 100000 in
/-- The activations' array is not written. -/
theorem r4_arg0 (W : Valuation τ sig (Elt F)) :
    (after r4 W (Proc.devRef .tc main_arg0) : Arr (F := F) S4x2048x4096 .f32) = W (Proc.devRef .tc main_arg0) := by
  simp only [r4]
  after_results_simp
  try simp only [TRef.toBuf, TRef.ofBuf, cast_eq]
  try rfl

set_option maxRecDepth 100000 in
/-- The weights' array is not written. -/
theorem r4_arg1 (W : Valuation τ sig (Elt F)) :
    (after r4 W (Proc.devRef .tc main_arg1) : Arr (F := F) S11008x4096 .f32) = W (Proc.devRef .tc main_arg1) := by
  simp only [r4]
  after_results_simp
  try simp only [TRef.toBuf, TRef.ofBuf, cast_eq]
  try rfl

set_option maxRecDepth 100000 in
/-- The threshold's array is not written. -/
theorem r4_arg2 (W : Valuation τ sig (Elt F)) :
    (after r4 W (Proc.devRef .tc main_arg2) : Arr (F := F) S1 .f32) = W (Proc.devRef .tc main_arg2) := by
  simp only [r4]
  after_results_simp
  try simp only [TRef.toBuf, TRef.ofBuf, cast_eq]
  try rfl

end Cert.RefRun

end
-- ==== Proof.RefRun.Seg5.lean ====
/-
  The last stretch, read with the contents it starts from left unknown: from the inlier part, the inlier quantized
  weights, the weight scales and the outlier product it computes the row scales, the quantized inliers, the quantized
  product, its scaling by rows and columns, the sum with the outlier product, and the recast result.
-/
import proofs.«119141_j49220325212290_2_alg».proof.Proof.RefRun.Ops
import proofs.«119141_j49220325212290_2_alg».proof.Proof.StagesOf
import proofs.«119141_j49220325212290_2_alg».proof.Proof.StagesOfRef

noncomputable section

namespace Cert.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

set_option maxRecDepth 100000 in
/-- The result. -/
theorem r5_v48 (W : Valuation τ sig (Elt F)) :
    (after r5 W (Proc.devRef .tc main_v48) : Arr (F := F) S4x2048x11008 .f32) = refResultOf (yrefOf (prodOf (qxOf (W (Proc.devRef .tc main_v17)) (rowScale (W (Proc.devRef .tc main_v17)))) (W (Proc.devRef .tc main_v26))) (rowScale (W (Proc.devRef .tc main_v17))) (W (Proc.devRef .tc main_v5)) (W (Proc.devRef .tc main_v28))) := by
  simp only [r5]
  after_results_simp
  try simp only [TRef.toBuf, TRef.ofBuf, cast_eq]
  try rfl

set_option maxRecDepth 100000 in
/-- The activations' array is not written. -/
theorem r5_arg0 (W : Valuation τ sig (Elt F)) :
    (after r5 W (Proc.devRef .tc main_arg0) : Arr (F := F) S4x2048x4096 .f32) = W (Proc.devRef .tc main_arg0) := by
  simp only [r5]
  after_results_simp
  try simp only [TRef.toBuf, TRef.ofBuf, cast_eq]
  try rfl

set_option maxRecDepth 100000 in
/-- The weights' array is not written. -/
theorem r5_arg1 (W : Valuation τ sig (Elt F)) :
    (after r5 W (Proc.devRef .tc main_arg1) : Arr (F := F) S11008x4096 .f32) = W (Proc.devRef .tc main_arg1) := by
  simp only [r5]
  after_results_simp
  try simp only [TRef.toBuf, TRef.ofBuf, cast_eq]
  try rfl

set_option maxRecDepth 100000 in
/-- The threshold's array is not written. -/
theorem r5_arg2 (W : Valuation τ sig (Elt F)) :
    (after r5 W (Proc.devRef .tc main_arg2) : Arr (F := F) S1 .f32) = W (Proc.devRef .tc main_arg2) := by
  simp only [r5]
  after_results_simp
  try simp only [TRef.toBuf, TRef.ofBuf, cast_eq]
  try rfl

end Cert.RefRun

end
-- ==== Proof.RefRun.lean ====
/-
  The reference program's run, read back: its host operations in order, cut into five stretches each read from
  unknown starting contents, and the fact that every weakly fair execution ends with the result buffer at the
  composition of stages that `Stages.refResult` names, the arguments unchanged.
-/
import proofs.«119141_j49220325212290_2_alg».proof.Proof.RefRun.Seg1
import proofs.«119141_j49220325212290_2_alg».proof.Proof.RefRun.Seg2
import proofs.«119141_j49220325212290_2_alg».proof.Proof.RefRun.Seg3
import proofs.«119141_j49220325212290_2_alg».proof.Proof.RefRun.Seg4
import proofs.«119141_j49220325212290_2_alg».proof.Proof.RefRun.Seg5
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

/-- The result array after all the operations, from any starting contents: the reference's result of the three
    argument arrays' starting contents. -/
theorem after_v48 (V : Valuation τ sig (Elt F)) :
    (after ops V (Proc.devRef .tc main_v48) : Arr (F := F) S4x2048x11008 .f32)
      = refResult (V (Proc.devRef .tc main_arg0)) (V (Proc.devRef .tc main_arg1)) (V (Proc.devRef .tc main_arg2)) := by
  show after (r1 ++ (r2 ++ (r3 ++ (r4 ++ r5)))) V _ = _
  rw [after_append, after_append, after_append, after_append]
  rw [r5_v48, r4_v17, r4_v26, r4_v28, r4_v5, r3_v17, r3_v15, r3_v13, r3_v9, r3_v5, r2_v13, r2_v0, r2_v9, r2_v5,
    r1_v0, r1_v1, r1_v5, r1_v9]
  rw [refResult_eq, yref_eq, dq_eq, outl_eq, qwin_eq, wdq_eq, qx_eq]
  unfold Cert.Stages.xs
  rw [xin_eq, xout_eq, mask_eq]

/-- The activations' array is as it started. -/
theorem after_arg0 (V : Valuation τ sig (Elt F)) :
    (after ops V (Proc.devRef .tc main_arg0) : Arr (F := F) S4x2048x4096 .f32) = V (Proc.devRef .tc main_arg0) := by
  show after (r1 ++ (r2 ++ (r3 ++ (r4 ++ r5)))) V _ = _
  rw [after_append, after_append, after_append, after_append, r5_arg0, r4_arg0, r3_arg0, r2_arg0, r1_arg0]

/-- The weights' array is as it started. -/
theorem after_arg1 (V : Valuation τ sig (Elt F)) :
    (after ops V (Proc.devRef .tc main_arg1) : Arr (F := F) S11008x4096 .f32) = V (Proc.devRef .tc main_arg1) := by
  show after (r1 ++ (r2 ++ (r3 ++ (r4 ++ r5)))) V _ = _
  rw [after_append, after_append, after_append, after_append, r5_arg1, r4_arg1, r3_arg1, r2_arg1, r1_arg1]

/-- The threshold's array is as it started. -/
theorem after_arg2 (V : Valuation τ sig (Elt F)) :
    (after ops V (Proc.devRef .tc main_arg2) : Arr (F := F) S1 .f32) = V (Proc.devRef .tc main_arg2) := by
  show after (r1 ++ (r2 ++ (r3 ++ (r4 ++ r5)))) V _ = _
  rw [after_append, after_append, after_append, after_append, r5_arg2, r4_arg2, r3_arg2, r2_arg2, r1_arg2]

set_option maxRecDepth 100000 in
/-- No operation allocates a buffer. -/
theorem ops_fresh : ∀ op ∈ (ops : List (HloOp τ sig (Elt F))), op.fresh = ∅ := by
  intro op h
  simp only [ops, r1, r2, r3, r4, r5, List.cons_append, List.nil_append] at h
  (repeat (cases h with | head => rfl | tail _ h => ?_)); exact nomatch h

set_option maxRecDepth 100000 in
/-- Every weakly fair execution of the reference terminates with its result at the composition of stages and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Cert.Stages.refResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (after_v48 (launchContents m c)),
      (h c main_arg0).trans (after_arg0 (launchContents m c)),
      (h c main_arg1).trans (after_arg1 (launchContents m c)),
      (h c main_arg2).trans (after_arg2 (launchContents m c))⟩)
    (run_seq scopedRefs_eq scopedSems_eq defs main (fun _ => ops) main_eq (fun _ => ops_sub) m ρ (fun _ => ops_fresh))

end Cert.RefRun

end
-- ==== Proof.StageRead.lean ====
/-
  The stages read at an index, at the ideal instance: each entry of a stage from the entries of the stages before it.
-/
import proofs.«119141_j49220325212290_2_alg».proof.Proof.Stages
import proofs.«119141_j49220325212290_2_alg».proof.Proof.LibColumn
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.StageRead

open Idealize.ShloMosaic Idealize.ShloMosaic.ValueIdx Cert.Stages
open Cert.KernelIdeal Cert.KernelIdeal.Facts₀

/-- Rounding to the nearest integer, ties to even, on the extended reals. -/
abbrev RE : EReal → EReal := Ideal.liftRound Ideal.roundHalfEven

variable (x : Arr (F := Ideal) S4x2048x4096 .f32) (s : Arr (F := Ideal) S1 .f32) (w : Arr (F := Ideal) S11008x4096 .f32)

/-- The mask repeated over the rows reads the mask at the column. -/
theorem maskB_apply (r : Fin 8192) (k : Fin 4096) : maskB x s (ix2 r k) = mask x s (ix1 k) := by
  unfold maskB maskRow
  rw [broadcastInDim_apply _ _ _ (ix2 r k) (ix2 (0 : Fin 1) k) (fun a => match a with | ⟨0, _⟩ => rfl | ⟨1, _⟩ => rfl)]
  exact broadcastInDim_apply _ _ _ (ix2 (0 : Fin 1) k) (ix1 k) (fun a => match a with | ⟨0, _⟩ => rfl)

/-- The zero matrix is zero everywhere. -/
theorem zeroB_apply (i : S8192x4096.Idx) : zeroB (F := Ideal) i = 0 := by
  unfold zeroB
  rw [broadcastInDim_apply _ _ _ i ix0 (fun a => a.elim0)]
  exact Ideal.ofBits_zero_f32

/-- The outlier part at `(r, k)`: the activation on a marked column, zero elsewhere. -/
theorem xout_apply (r : Fin 8192) (k : Fin 4096) :
    xout x s (ix2 r k) = Scalar.select (mask x s (ix1 k)) (x2 x (ix2 r k)) 0 := by
  unfold xout
  rw [select_apply, maskB_apply, zeroB_apply]

/-- The inlier part at `(r, k)`: zero on a marked column, the activation elsewhere. -/
theorem xin_apply (r : Fin 8192) (k : Fin 4096) :
    xin x s (ix2 r k) = Scalar.select (mask x s (ix1 k)) 0 (x2 x (ix2 r k)) := by
  unfold xin
  rw [select_apply, maskB_apply, zeroB_apply]

/-- The row scale repeated along the columns reads the row's scale. -/
theorem xsB_apply (r : Fin 8192) (k : Fin 4096) : xsB x s (ix2 r k) = xs x s (ix1 r) := by
  unfold xsB
  rw [broadcastInDim_apply _ _ _ (ix2 r k) (ix2 r (0 : Fin 1)) (fun a => match a with | ⟨0, _⟩ => rfl | ⟨1, _⟩ => rfl)]
  exact broadcastInDim_apply _ _ _ (ix2 r (0 : Fin 1)) (ix1 r) (fun a => match a with | ⟨0, _⟩ => rfl)

/-- The quantized inlier part at `(r, k)`. -/
theorem qx_apply (r : Fin 8192) (k : Fin 4096) :
    qx x s (ix2 r k) = RE (Ideal.div (xin x s (ix2 r k)) (xs x s (ix1 r))) := by
  unfold qx
  show Ideal.liftRound Ideal.roundHalfEven (Ideal.div (xin x s (ix2 r k)) (xsB x s (ix2 r k))) = _
  rw [xsB_apply]

/-- The kernel's left operand at `(r, k)`. -/
theorem aMat_apply (r : Fin 8192) (k : Fin 4096) :
    aMat x s (ix2 r k) = qx x s (ix2 r k) + Ideal.div (xout x s (ix2 r k)) (xs x s (ix1 r)) := by
  unfold aMat
  show qx x s (ix2 r k) + Ideal.div (xout x s (ix2 r k)) (xsB x s (ix2 r k)) = _
  rw [xsB_apply]

/-- Row `n` of the first 11008, as a row of the padded 11264. -/
abbrev padRow (n : Fin 11008) : Fin 11264 := ⟨n.val, by have := n.isLt; omega⟩

/-- The padded weight scales read, on the first 11008 rows, the weight scales. -/
theorem scp_apply (n : Fin 11008) : scp w (ix1 (padRow n)) = sc w (ix1 n) := by
  unfold scp
  exact pad_apply_of_inside _ _ _ (sc w) _ pads_S11008_S11264_02560 h_S_ (ix1 (padRow n)) (ix1 n)
    (fun a => match a with | ⟨0, _⟩ => by show n.val = 0 + n.val * (0 + 1); omega)

/-- The padded weights read, on the first 11008 rows, the weights. -/
theorem wp_apply (n : Fin 11008) (k : Fin 4096) : wp w (ix2 (padRow n) k) = w (ix2 n k) := by
  unfold wp
  exact pad_apply_of_inside _ _ _ w _ pads_S11008x4096_S11264x4096_02560_000 h_S_ (ix2 (padRow n) k) (ix2 n k)
    (fun a => match a with
      | ⟨0, _⟩ => by show n.val = 0 + n.val * (0 + 1); omega
      | ⟨1, _⟩ => by show k.val = 0 + k.val * (0 + 1); omega)

/-- The padded weight scales repeated along the columns read the row's scale. -/
theorem scpB_apply (n : Fin 11264) (k : Fin 4096) : scpB w (ix2 n k) = scp w (ix1 n) := by
  unfold scpB
  rw [broadcastInDim_apply _ _ _ (ix2 n k) (ix2 n (0 : Fin 1)) (fun a => match a with | ⟨0, _⟩ => rfl | ⟨1, _⟩ => rfl)]
  exact broadcastInDim_apply _ _ _ (ix2 n (0 : Fin 1)) (ix1 n) (fun a => match a with | ⟨0, _⟩ => rfl)

/-- The kernel's right operand at `(n, k)`, on the first 11008 rows: the weight divided by its row's scale, rounded. -/
theorem bMat_apply (n : Fin 11008) (k : Fin 4096) :
    bMat w (ix2 (padRow n) k) = RE (Ideal.div (w (ix2 n k)) (sc w (ix1 n))) := by
  unfold bMat qwp
  show Ideal.liftRound Ideal.roundHalfEven (Ideal.div (wp w (ix2 (padRow n) k)) (scpB w (ix2 (padRow n) k))) = _
  rw [wp_apply, scpB_apply, scp_apply]

/-- The row scales as a column read the row's scale. -/
theorem rsCol_apply (r : Fin 8192) : rsCol x s (ix2 r (0 : Fin 1)) = xs x s (ix1 r) := by
  unfold rsCol
  exact Cert.LibColumn.shapeCast_a_a1_apply _ _ r 0

/-- The padded weight scales as a row read, on the first 11008 columns, the weight scales. -/
theorem csRow_apply (n : Fin 11008) : csRow w (ix2 (0 : Fin 1) (padRow n)) = sc w (ix1 n) := by
  unfold csRow
  rw [shapeCast_a_1a_apply]
  exact scp_apply w n

end Cert.StageRead

end
-- ==== Proof.StageReadRef.lean ====
/-
  The reference's own stages read at an index, at the ideal instance; in particular each of its two products as a
  sum over the 4096 columns.
-/
import proofs.«119141_j49220325212290_2_alg».proof.Proof.StageRead

noncomputable section

namespace Cert.StageReadRef

open Idealize.ShloMosaic Idealize.ShloMosaic.ValueIdx Cert.Stages Cert.StageRead
open Cert.ReferenceIdeal Cert.ReferenceIdeal.Facts₀

variable (x : Arr (F := Ideal) S4x2048x4096 .f32) (s : Arr (F := Ideal) S1 .f32) (w : Arr (F := Ideal) S11008x4096 .f32)

/-- The weight scales repeated along the columns read the row's scale. -/
theorem scB_apply (n : Fin 11008) (k : Fin 4096) : scB w (ix2 n k) = sc w (ix1 n) := by
  unfold scB
  rw [broadcastInDim_apply _ _ _ (ix2 n k) (ix2 n (0 : Fin 1)) (fun a => match a with | ⟨0, _⟩ => rfl | ⟨1, _⟩ => rfl)]
  exact broadcastInDim_apply _ _ _ (ix2 n (0 : Fin 1)) (ix1 n) (fun a => match a with | ⟨0, _⟩ => rfl)

/-- The quantized weight at `(n, k)`. -/
theorem qw_apply (n : Fin 11008) (k : Fin 4096) :
    qw w (ix2 n k) = RE (Ideal.div (w (ix2 n k)) (sc w (ix1 n))) := by
  unfold qw
  show Ideal.liftRound Ideal.roundHalfEven (Ideal.div (w (ix2 n k)) (scB w (ix2 n k))) = _
  rw [scB_apply]

/-- The mask repeated over the weight rows reads the mask at the column. -/
theorem maskW_apply (n : Fin 11008) (k : Fin 4096) : maskW x s (ix2 n k) = mask x s (ix1 k) := by
  unfold maskW maskRow
  rw [broadcastInDim_apply _ _ _ (ix2 n k) (ix2 (0 : Fin 1) k) (fun a => match a with | ⟨0, _⟩ => rfl | ⟨1, _⟩ => rfl)]
  exact broadcastInDim_apply _ _ _ (ix2 (0 : Fin 1) k) (ix1 k) (fun a => match a with | ⟨0, _⟩ => rfl)

/-- The dequantized outlier weight at `(n, k)`. -/
theorem wdq_apply (n : Fin 11008) (k : Fin 4096) :
    wdq x w s (ix2 n k)
      = (qw w (ix2 n k) * sc w (ix1 n)) * FloatOps.uitofp (F := Ideal) .f32 (mask x s (ix1 k)) := by
  unfold wdq
  rw [mulf_apply, mulf_apply, scB_apply,
    broadcastInDim_apply _ _ _ (ix2 n k) (ix2 (0 : Fin 1) k) (fun a => match a with | ⟨0, _⟩ => rfl | ⟨1, _⟩ => rfl)]
  show _ * FloatOps.uitofp (F := Ideal) .f32 (maskRow x s (ix2 (0 : Fin 1) k)) = _
  unfold maskRow
  rw [broadcastInDim_apply _ _ _ (ix2 (0 : Fin 1) k) (ix1 k) (fun a => match a with | ⟨0, _⟩ => rfl)]

/-- The inlier quantized weight at `(n, k)`: zero on a marked column. -/
theorem qwin_apply (n : Fin 11008) (k : Fin 4096) :
    qwin x w s (ix2 n k) = Scalar.select (mask x s (ix1 k)) 0 (qw w (ix2 n k)) := by
  unfold qwin
  rw [select_apply, maskW_apply, broadcastInDim_apply _ _ _ (ix2 n k) ix0 (fun a => a.elim0)]
  show Scalar.select _ (Ideal.ofBits .f32 0x00000000#32) _ = _
  rw [Ideal.ofBits_zero_f32]

/-- The row coordinate of the left operand's index is the result's row. -/
theorem dot_lhs_0 (i : S8192x11008.Idx) (q : dot_S8192x4096_S4096x11008_S8192x11008_1_0_0_1_n_n.contr.Idx) : (dot_S8192x4096_S4096x11008_S8192x11008_1_0_0_1_n_n.lhsIdx i q 0).val = (i 0).val := by
  unfold DotDims.lhsIdx
  rw [dif_neg (show ¬(0 : Fin S8192x4096.rank) ∈ dot_S8192x4096_S4096x11008_S8192x11008_1_0_0_1_n_n.lhsBatch by decide),
    dif_pos (show (0 : Fin S8192x4096.rank) ∈ dot_S8192x4096_S4096x11008_S8192x11008_1_0_0_1_n_n.lhsNonContracting by decide)]
  rfl

/-- The column coordinate of the left operand's index is the contracted coordinate. -/
theorem dot_lhs_1 (i : S8192x11008.Idx) (q : dot_S8192x4096_S4096x11008_S8192x11008_1_0_0_1_n_n.contr.Idx) : (dot_S8192x4096_S4096x11008_S8192x11008_1_0_0_1_n_n.lhsIdx i q 1).val = (q ⟨0, by decide⟩).val :=
  dot_S8192x4096_S4096x11008_S8192x11008_1_0_0_1_n_n.lhsIdx_val_of_single rfl i q

/-- The row coordinate of the right operand's index is the contracted coordinate. -/
theorem dot_rhs_0 (i : S8192x11008.Idx) (q : dot_S8192x4096_S4096x11008_S8192x11008_1_0_0_1_n_n.contr.Idx) : (dot_S8192x4096_S4096x11008_S8192x11008_1_0_0_1_n_n.rhsIdx i q 0).val = (q ⟨0, by decide⟩).val :=
  dot_S8192x4096_S4096x11008_S8192x11008_1_0_0_1_n_n.rhsIdx_val_of_single rfl i q

/-- The column coordinate of the right operand's index is the result's column. -/
theorem dot_rhs_1 (i : S8192x11008.Idx) (q : dot_S8192x4096_S4096x11008_S8192x11008_1_0_0_1_n_n.contr.Idx) : (dot_S8192x4096_S4096x11008_S8192x11008_1_0_0_1_n_n.rhsIdx i q 1).val = (i 1).val := by
  unfold DotDims.rhsIdx
  rw [dif_neg (show ¬(1 : Fin S4096x11008.rank) ∈ dot_S8192x4096_S4096x11008_S8192x11008_1_0_0_1_n_n.rhsBatch by decide),
    dif_pos (show (1 : Fin S4096x11008.rank) ∈ dot_S8192x4096_S4096x11008_S8192x11008_1_0_0_1_n_n.rhsNonContracting by decide)]
  rfl

/-- The host's product of an 8192 × 4096 matrix with the transpose of an 11008 × 4096 matrix, entry by entry: the
    sum over the 4096 columns of the products of the two rows' entries. -/
theorem dot_transpose_apply (L : FVec Ideal S8192x4096 .f32) (T : FVec Ideal S11008x4096 .f32)
    (r : Fin 8192) (n : Fin 11008) :
    Host.dotGeneral (F := Ideal) dot_S8192x4096_S4096x11008_S8192x11008_1_0_0_1_n_n none L
        (transpose S4096x11008 [1, 0] T transposes_S11008x4096_S4096x11008_1_0) (ix2 r n)
      = ∑ k : Fin 4096, L (ix2 r k) * T (ix2 n k) := by
  generalize hR : transpose S4096x11008 [1, 0] T transposes_S11008x4096_S4096x11008_1_0 = R
  have hRk : ∀ k : Fin 4096, R (ix2 k n) = T (ix2 n k) := fun k => by
    rw [← hR]; exact transpose_ix2_apply T transposes_S11008x4096_S4096x11008_1_0 k n
  simp only [Host.dotGeneral]
  rw [Ideal.dotGeneral_apply, ← Equiv.sum_comp (ValueIdx.contrEquiv1 dot_S8192x4096_S4096x11008_S8192x11008_1_0_0_1_n_n 4096 rfl rfl).symm]
  refine Finset.sum_congr rfl fun k _ => ?_
  have hk := ValueIdx.contrEquiv1_symm_val dot_S8192x4096_S4096x11008_S8192x11008_1_0_0_1_n_n 4096 rfl rfl k
  have el : dot_S8192x4096_S4096x11008_S8192x11008_1_0_0_1_n_n.lhsIdx (ix2 r n) ((ValueIdx.contrEquiv1 dot_S8192x4096_S4096x11008_S8192x11008_1_0_0_1_n_n 4096 rfl rfl).symm k) = ix2 r k :=
    funext fun a => Fin.ext (by
      match a with
      | ⟨0, _⟩ => exact dot_lhs_0 _ _
      | ⟨1, _⟩ => exact (dot_lhs_1 _ _).trans hk)
  have er : dot_S8192x4096_S4096x11008_S8192x11008_1_0_0_1_n_n.rhsIdx (ix2 r n) ((ValueIdx.contrEquiv1 dot_S8192x4096_S4096x11008_S8192x11008_1_0_0_1_n_n 4096 rfl rfl).symm k) = ix2 k n :=
    funext fun a => Fin.ext (by
      match a with
      | ⟨0, _⟩ => exact (dot_rhs_0 _ _).trans hk
      | ⟨1, _⟩ => exact dot_rhs_1 _ _)
  rw [el, er, hRk]

/-- The reference's matrix at `(r, n)`. -/
theorem yref_apply (r : Fin 8192) (n : Fin 11008) :
    yref x w s (ix2 r n)
      = ((∑ k : Fin 4096, qx x s (ix2 r k) * qwin x w s (ix2 n k)) * xs x s (ix1 r)) * sc w (ix1 n)
        + ∑ k : Fin 4096, xout x s (ix2 r k) * wdq x w s (ix2 n k) := by
  unfold yref dq outl
  rw [addf_apply, mulf_apply, mulf_apply, dot_transpose_apply, dot_transpose_apply,
    broadcastInDim_apply _ _ _ (ix2 r n) (ix2 r (0 : Fin 1)) (fun a => match a with | ⟨0, _⟩ => rfl | ⟨1, _⟩ => rfl),
    broadcastInDim_apply _ _ _ (ix2 r (0 : Fin 1)) (ix1 r) (fun a => match a with | ⟨0, _⟩ => rfl),
    broadcastInDim_apply _ _ _ (ix2 r n) (ix2 (0 : Fin 1) n) (fun a => match a with | ⟨0, _⟩ => rfl | ⟨1, _⟩ => rfl),
    broadcastInDim_apply _ _ _ (ix2 (0 : Fin 1) n) (ix1 n) (fun a => match a with | ⟨0, _⟩ => rfl)]

end Cert.StageReadRef

end
-- ==== Proof.Algebra.lean ====
/-
  The algebraic law that joins the two programs, with no program in sight.

  Fix a row of activations and a row of weights, indexed by a finite set of columns `k`.  Each column is either an
  outlier column (`M k = 1`) or an inlier column (`M k = 0`).  With `x k` the activation, `q k` the quantized weight,
  `XS` the row scale (a nonzero real), `SC` the weight scale and `re` the rounding, one program computes

      ((∑ₖ (re (inlierₖ / XS) + outlierₖ / XS) · qₖ) · XS) · SC

  and the other

      ((∑ₖ re (inlierₖ / XS) · q'ₖ) · XS) · SC + ∑ₖ outlierₖ · ((qₖ · SC) · mₖ)

  where `inlierₖ` is `0` on outlier columns and `xₖ` elsewhere, `outlierₖ` the other way round, `q'ₖ` is `0` on
  outlier columns and `qₖ` elsewhere, and `mₖ` is `1` on outlier columns and `0` elsewhere.  On an outlier column the
  first sum's term is `(xₖ / XS) · qₖ`, whose product with `XS` is `xₖ · qₖ`; on an inlier column the two terms are the
  same.  Over the reals this is distributivity and `XS ≠ 0`; when `SC = 0` both sides vanish whatever the `qₖ` are.
-/
import Mathlib.Data.EReal.Basic
import Mathlib.Data.EReal.Operations
import Mathlib.Algebra.BigOperators.Ring.Finset
import Mathlib.Tactic

noncomputable section

namespace Cert.Algebra

open Finset

/-- The coercion of a finite sum of reals is the sum of the coercions. -/
theorem coe_sum' {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- Both sides vanish when the weight scale is zero. -/
theorem merge_zero {K : Type*} [Fintype K] (A B C D Q Mf : K → EReal) (XS : EReal) :
    ((∑ k, A k * Q k) * XS) * 0 = ((∑ k, B k * C k) * XS) * 0 + ∑ k, D k * ((Q k * 0) * Mf k) := by
  simp only [mul_zero, zero_mul, Finset.sum_const_zero, add_zero]

/-- The law over the reals, column by column: if on every column the first program's term, scaled, is the sum of the
    second program's two terms, then the totals agree. -/
theorem merge_real {K : Type*} [Fintype K] (A B C D Q Mf : K → ℝ) (XS S : ℝ)
    (h : ∀ k, A k * Q k * XS * S = B k * C k * XS * S + D k * ((Q k * S) * Mf k)) :
    ((∑ k, A k * Q k) * XS) * S = ((∑ k, B k * C k) * XS) * S + ∑ k, D k * ((Q k * S) * Mf k) := by
  rw [Finset.sum_mul, Finset.sum_mul, Finset.sum_mul, Finset.sum_mul, ← Finset.sum_add_distrib]
  exact Finset.sum_congr rfl fun k _ => h k

/-- The same on the extended reals, for real data. -/
theorem merge_coe {K : Type*} [Fintype K] (A B C D Q Mf : K → ℝ) (XS S : ℝ)
    (h : ∀ k, A k * Q k * XS * S = B k * C k * XS * S + D k * ((Q k * S) * Mf k)) :
    ((∑ k, (A k : EReal) * (Q k : EReal)) * (XS : EReal)) * (S : EReal)
      = ((∑ k, (B k : EReal) * (C k : EReal)) * (XS : EReal)) * (S : EReal)
        + ∑ k, (D k : EReal) * (((Q k : EReal) * (S : EReal)) * (Mf k : EReal)) := by
  simp only [← EReal.coe_mul, ← coe_sum', ← EReal.coe_add]
  exact congrArg _ (merge_real A B C D Q Mf XS S h)

end Cert.Algebra

end
-- ==== Proof.Scales.lean ====
/-
  The two scale vectors are real numbers of the right sign.

  For a matrix of real entries, the largest absolute value along a row — a maximum taken from −∞ over at least one
  entry, each entry a real number that is not negative — is a real number that is not negative; so is its quotient by
  a positive constant; and the larger of it and a positive real constant is a positive real number.  Also here: what
  rounding to the nearest integer does to one entry, that it keeps a real number real, and that it fixes zero.
-/
import proofs.«119141_j49220325212290_2_alg».proof.Proof.Stages
import proofs.«119141_j49220325212290_2_alg».proof.Proof.LibEReal
import Idealize.ShloMosaic.Lib.ValueIdx
import Idealize.ShloMosaic.Lib.Pipeline.Value
import Idealize.ShloMosaic.PureOps.Ideal.Laws

noncomputable section

namespace Cert.Scales

open Idealize.ShloMosaic Idealize.ShloMosaic.ValueIdx Cert.Spec

/-! ## Extended reals -/

/-- An extended real strictly between the two infinities is a real number. -/
theorem eq_coe_toReal {x : EReal} (h₁ : ⊥ < x) (h₂ : x < ⊤) : x = ((x.toReal : ℝ) : EReal) :=
  (EReal.coe_toReal h₂.ne h₁.ne').symm

/-- The absolute value of a real number, as the larger of it and its opposite. -/
theorem abs_coe (a : ℝ) : max (a : EReal) (-(a : EReal)) = ((|a| : ℝ) : EReal) := by
  rw [abs_eq_max_neg, EReal.coe_strictMono.monotone.map_max, EReal.coe_neg]

/-- A maximum taken from any start below +∞ over finitely many entries, at least one, each a real number that is not
    negative, is a real number that is not negative. -/
theorem fold_max_nonneg_real {ι : Type} (s : Finset ι) (b : EReal) (f : ι → EReal) (hb : b < ⊤)
    (hf : ∀ k, ∃ c : ℝ, 0 ≤ c ∧ f k = (c : EReal)) (hs : s.Nonempty) :
    ∃ c : ℝ, 0 ≤ c ∧ s.fold max b f = (c : EReal) := by
  have hlt : s.fold max b f < ⊤ := by
    refine (Finset.fold_max_lt _).2 ⟨hb, fun k _ => ?_⟩
    obtain ⟨c, -, hc⟩ := hf k
    rw [hc]; exact EReal.coe_lt_top c
  have hge : (0 : EReal) ≤ s.fold max b f := by
    obtain ⟨k, hk⟩ := hs
    refine (Finset.le_fold_max _).2 (Or.inr ⟨k, hk, ?_⟩)
    obtain ⟨c, hc0, hc⟩ := hf k
    rw [hc]; exact EReal.coe_nonneg.mpr hc0
  have hbot : ⊥ < s.fold max b f := lt_of_lt_of_le EReal.bot_lt_zero hge
  exact ⟨(s.fold max b f).toReal, EReal.toReal_nonneg hge, eq_coe_toReal hbot hlt⟩

/-! ## The constants -/

/-- The pattern of −∞ denotes −∞. -/
theorem ofBits_neg_inf : Ideal.ofBits .f32 0xFF800000#32 = ⊥ := by
  simp [Ideal.ofBits, Ideal.ieee]

/-- The pattern of 127 denotes the real number 127. -/
theorem ofBits_127 : Ideal.ofBits .f32 0x42FE0000#32 = ((127 : ℝ) : EReal) := by
  simp [Ideal.ofBits, Ideal.ieee, -EReal.coe_mul]; norm_num

/-- The pattern of 64 denotes the real number 64. -/
theorem ofBits_64 : Ideal.ofBits .f32 0x42800000#32 = ((64 : ℝ) : EReal) := by
  simp [Ideal.ofBits, Ideal.ieee, -EReal.coe_mul]; norm_num

/-- The pattern of the floor (about 1e-8) denotes a positive real number. -/
theorem ofBits_floor : ∃ e : ℝ, 0 < e ∧ Ideal.ofBits .f32 0x322BCC77#32 = (e : EReal) := by
  refine ⟨_, ?_, by simp [Ideal.ofBits, Ideal.ieee, -EReal.coe_mul]; rfl⟩
  positivity

/-! ## A row's largest absolute value -/

/-- Over one axis with at least one coordinate, the maximum from −∞ of the absolute values of real entries is, at every
    result index, a real number that is not negative. -/
theorem rowMax_nonneg_real {s t : Shape} {a : Fin s.rank} (y : FVec Ideal s .f32) (hy : ∀ i, IsReal (y i))
    (h' : s.ReducesTo [a] t) (h : s.Reduces [a] t) (hpos : 0 < s.size a) (hu : 0 < (⟨0, ![]⟩ : Shape).numel) (j : t.Idx) :
    ∃ c : ℝ, 0 ≤ c ∧
      Host.reduce (FloatOps.maximumf (F := Ideal) (φ := .f32)) (Host.absf (F := Ideal) y)
        (constant (F := Ideal) (⟨0, ![]⟩ : Shape) .f32 0xFF800000#32) h' hu j = (c : EReal) := by
  rw [Host.reduce_eq_fold_single (FloatOps.maximumf (F := Ideal) (φ := .f32)) _ _ h' h hu]
  refine fold_max_nonneg_real Finset.univ _ _ ?_ (fun k => ?_) ⟨⟨0, hpos⟩, Finset.mem_univ _⟩
  · show Ideal.ofBits .f32 0xFF800000#32 < ⊤
    rw [ofBits_neg_inf]; exact bot_lt_top
  · obtain ⟨c, hc⟩ := hy (h.lift j k)
    refine ⟨|c|, abs_nonneg c, ?_⟩
    show max (y (h.lift j k)) (-(y (h.lift j k))) = _
    rw [hc, abs_coe]

/-! ## The two scale vectors -/

section
open Cert.KernelIdeal Cert.KernelIdeal.Facts₀

/-- The larger of (a real number that is not negative) / 127 and the floor constant is a positive real number. -/
theorem max_div127_floor_pos_real {M : EReal} {c : ℝ} (hc0 : 0 ≤ c) (hM : M = (c : EReal)) :
    ∃ a : ℝ, 0 < a ∧
      max (Ideal.div M (Ideal.ofBits .f32 0x42FE0000#32)) (Ideal.ofBits .f32 0x322BCC77#32) = (a : EReal) := by
  obtain ⟨e, he0, he⟩ := ofBits_floor
  refine ⟨max (c * (1 / 127)) e, lt_max_of_lt_right he0, ?_⟩
  rw [hM, ofBits_127, he, div_real _ (by norm_num : (127 : ℝ) ≠ 0), ← EReal.coe_mul,
    EReal.coe_strictMono.monotone.map_max]

/-- (A real number that is not negative) / 64 is a real number that is not negative. -/
theorem div64_nonneg_real {M : EReal} {c : ℝ} (hc0 : 0 ≤ c) (hM : M = (c : EReal)) :
    ∃ a : ℝ, 0 ≤ a ∧ Ideal.div M (Ideal.ofBits .f32 0x42800000#32) = (a : EReal) := by
  refine ⟨c * (1 / 64), by positivity, ?_⟩
  rw [hM, ofBits_64, div_real _ (by norm_num : (64 : ℝ) ≠ 0), ← EReal.coe_mul]

/-- Every row scale of a matrix of real entries is a positive real number. -/
theorem rowScale_pos_real (y : Cert.Stages.Arr (F := Ideal) S8192x4096 .f32) (hy : ∀ i, IsReal (y i)) (r : Fin 8192) :
    ∃ a : ℝ, 0 < a ∧ Cert.Stages.rowScale y (ix1 r) = (a : EReal) := by
  have hR : S8192x4096.Reduces [1] S8192 := by decide
  obtain ⟨c, hc0, hc⟩ :=
    rowMax_nonneg_real y hy reducesTo_S8192x4096_S8192_d1 hR (by decide) h_S_ (ix1 r)
  unfold Cert.Stages.rowScale
  exact max_div127_floor_pos_real hc0 hc

/-- Every weight scale of a matrix of real entries is a real number that is not negative. -/
theorem sc_nonneg_real (w : Cert.Stages.Arr (F := Ideal) S11008x4096 .f32) (hw : ∀ i, IsReal (w i)) (n : Fin 11008) :
    ∃ a : ℝ, 0 ≤ a ∧ Cert.Stages.sc w (ix1 n) = (a : EReal) := by
  have hR : S11008x4096.Reduces [1] S11008 := by decide
  obtain ⟨c, hc0, hc⟩ :=
    rowMax_nonneg_real w hw reducesTo_S11008x4096_S11008_d1 hR (by decide) h_S_ (ix1 n)
  unfold Cert.Stages.sc
  exact div64_nonneg_real hc0 hc

end

/-! ## Rounding to the nearest integer -/

/-- Rounding a vector reads entry by entry: each entry is rounded to the nearest integer, ties to even, the infinities
    fixed. -/
theorem roundeven_apply {S : Shape} {φ : FTy} (v : FVec Ideal S φ) (i : S.Idx) :
    Host.roundeven (F := Ideal) v i = Ideal.liftRound Ideal.roundHalfEven (v i) := rfl

/-- The rounding of a real number is a real number. -/
theorem roundeven_real (a : ℝ) : IsReal (Ideal.liftRound Ideal.roundHalfEven (a : EReal)) :=
  ⟨(Ideal.roundHalfEven a : ℝ), rfl⟩

/-- The rounding of zero is zero. -/
theorem roundeven_zero : Ideal.liftRound Ideal.roundHalfEven (0 : EReal) = 0 := by
  rw [← EReal.coe_zero, Ideal.liftRound_coe]
  simp [Ideal.roundHalfEven]

end Cert.Scales

end
-- ==== Proof.Bridge.lean ====
/-
  The two programs agree entry by entry.

  Fix a row `r` of activations and a row `n` of weights.  The row scale `XS` of the inlier part is a positive real
  number and the weight scale `SC` a real number that is not negative.  Per column `k`, with `M` the outlier mark of
  the column, `xv` the activation and `Q` the quantized weight, the kernel's product has the term
  `(re (inlier / XS) + outlier / XS) · Q`, the reference's two products the terms `re (inlier / XS) · Q'` and
  `outlier · ((Q · SC) · m)`.  When `SC = 0` both sides vanish whatever the `Q` are.  Otherwise every quantity is a
  real number: on a marked column the inlier is `0`, its rounding `0`, and the kernel's term `(xv / XS) · Q`; on an
  unmarked column the outlier is `0` and both programs have `re (xv / XS) · Q`; the totals then agree by
  distributivity over the reals and `XS ≠ 0`.
-/
import proofs.«119141_j49220325212290_2_alg».proof.Proof.StageRead
import proofs.«119141_j49220325212290_2_alg».proof.Proof.StageReadRef
import proofs.«119141_j49220325212290_2_alg».proof.Proof.Algebra
import proofs.«119141_j49220325212290_2_alg».proof.Proof.Scales
import proofs.«119141_j49220325212290_2_alg».proof.Proof.Gemm

noncomputable section

namespace Cert.Bridge

open Idealize.ShloMosaic Idealize.ShloMosaic.ValueIdx Cert.Spec Cert.Stages Cert.StageRead

/-! ## One column, over the reals -/

/-- The rounded quotient of the inlier by the row scale: zero on a marked column. -/
def bR (M : BitVec 1) (xv XS : ℝ) : ℝ := Scalar.select M 0 ((Ideal.roundHalfEven (xv * (1 / XS)) : ℤ) : ℝ)
/-- The reference's inlier weight: zero on a marked column. -/
def cR (M : BitVec 1) (q : ℝ) : ℝ := Scalar.select M 0 q
/-- The outlier: the activation on a marked column, zero elsewhere. -/
def dR (M : BitVec 1) (xv : ℝ) : ℝ := Scalar.select M xv 0
/-- The mark as a number. -/
def mR (M : BitVec 1) : ℝ := Scalar.select M 1 0
/-- The kernel's left entry: the rounded inlier quotient plus the outlier quotient. -/
def aR (M : BitVec 1) (xv XS : ℝ) : ℝ := bR M xv XS + dR M xv * (1 / XS)
/-- The quantized weight. -/
def qR (wv S : ℝ) : ℝ := ((Ideal.roundHalfEven (wv * (1 / S)) : ℤ) : ℝ)

theorem div_coe_coe (a : ℝ) {N : ℝ} (hN : N ≠ 0) :
    Ideal.div (a : EReal) (N : EReal) = ((a * (1 / N) : ℝ) : EReal) := by
  rw [div_real _ hN, ← EReal.coe_mul]

theorem div_zero_coe {N : ℝ} (hN : N ≠ 0) : Ideal.div (0 : EReal) (N : EReal) = 0 := by
  rw [div_real _ hN, zero_mul]

theorem b_term (M : BitVec 1) (xv : ℝ) {XS : ℝ} (hXS : XS ≠ 0) :
    RE (Ideal.div (Scalar.select M 0 (xv : EReal)) (XS : EReal)) = ((bR M xv XS : ℝ) : EReal) := by
  unfold bR
  rcases BitVec.eq_zero_or_eq_one M with h | h <;> subst h
  · rw [select_zero, select_zero, div_coe_coe _ hXS]; rfl
  · rw [select_one, select_one, div_zero_coe hXS, EReal.coe_zero]; exact Cert.Scales.roundeven_zero

theorem c_term (M : BitVec 1) (q : ℝ) : Scalar.select M 0 (q : EReal) = ((cR M q : ℝ) : EReal) := by
  unfold cR
  rcases BitVec.eq_zero_or_eq_one M with h | h <;> subst h
  · rw [select_zero, select_zero]
  · rw [select_one, select_one, EReal.coe_zero]

theorem d_term (M : BitVec 1) (xv : ℝ) : Scalar.select M (xv : EReal) 0 = ((dR M xv : ℝ) : EReal) := by
  unfold dR
  rcases BitVec.eq_zero_or_eq_one M with h | h <;> subst h
  · rw [select_zero, select_zero, EReal.coe_zero]
  · rw [select_one, select_one]

theorem m_term (M : BitVec 1) : FloatOps.uitofp (F := Ideal) .f32 M = ((mR M : ℝ) : EReal) := by
  unfold mR
  rcases BitVec.eq_zero_or_eq_one M with h | h <;> subst h
  · rw [select_zero]; show (((0#1 : BitVec 1).toNat : ℝ) : EReal) = _; simp
  · rw [select_one]; show (((1#1 : BitVec 1).toNat : ℝ) : EReal) = _; simp

theorem a_term (M : BitVec 1) (xv : ℝ) {XS : ℝ} (hXS : XS ≠ 0) :
    RE (Ideal.div (Scalar.select M 0 (xv : EReal)) (XS : EReal)) + Ideal.div (Scalar.select M (xv : EReal) 0) (XS : EReal)
      = ((aR M xv XS : ℝ) : EReal) := by
  unfold aR
  rw [b_term M xv hXS, d_term, div_coe_coe _ hXS, ← EReal.coe_add]

theorem q_term (wv : ℝ) {S : ℝ} (hS : S ≠ 0) : RE (Ideal.div (wv : EReal) (S : EReal)) = ((qR wv S : ℝ) : EReal) := by
  unfold qR
  rw [div_coe_coe _ hS]; rfl

/-- The law on one column: the kernel's term, scaled, is the sum of the reference's two terms. -/
theorem real_law (M : BitVec 1) (xv q : ℝ) {XS : ℝ} (hXS : XS ≠ 0) (S : ℝ) :
    aR M xv XS * q * XS * S = bR M xv XS * cR M q * XS * S + dR M xv * ((q * S) * mR M) := by
  unfold aR bR cR dR mR
  rcases BitVec.eq_zero_or_eq_one M with h | h <;> subst h
  · simp only [select_zero]; ring
  · simp only [select_one]; field_simp; ring

/-! ## One entry, the masks and the entries as parameters -/

/-- When the weight scale is zero both sides vanish. -/
theorem core_zero {K : Type} [Fintype K] (A B C D Q Mf : K → EReal) (XS SC : EReal) (h : SC = 0) :
    ((∑ k, A k * Q k) * XS) * SC = ((∑ k, B k * C k) * XS) * SC + ∑ k, D k * ((Q k * SC) * Mf k) := by
  subst h; exact Cert.Algebra.merge_zero A B C D Q Mf XS

/-- When both scales are nonzero real numbers and the entries are real numbers the two sides agree. -/
theorem core_real {K : Type} [Fintype K] (M : K → BitVec 1) (xv wv : K → ℝ) {XS S : ℝ} (hXS : XS ≠ 0) (hS : S ≠ 0) :
    ((∑ k, (RE (Ideal.div (Scalar.select (M k) 0 (xv k : EReal)) (XS : EReal))
              + Ideal.div (Scalar.select (M k) (xv k : EReal) 0) (XS : EReal))
            * RE (Ideal.div (wv k : EReal) (S : EReal))) * (XS : EReal)) * (S : EReal)
      = ((∑ k, RE (Ideal.div (Scalar.select (M k) 0 (xv k : EReal)) (XS : EReal))
              * Scalar.select (M k) 0 (RE (Ideal.div (wv k : EReal) (S : EReal)))) * (XS : EReal)) * (S : EReal)
        + ∑ k, Scalar.select (M k) (xv k : EReal) 0
            * ((RE (Ideal.div (wv k : EReal) (S : EReal)) * (S : EReal)) * FloatOps.uitofp (F := Ideal) .f32 (M k)) := by
  have hL : ∀ k, (RE (Ideal.div (Scalar.select (M k) 0 (xv k : EReal)) (XS : EReal))
              + Ideal.div (Scalar.select (M k) (xv k : EReal) 0) (XS : EReal))
            * RE (Ideal.div (wv k : EReal) (S : EReal))
          = ((aR (M k) (xv k) XS : ℝ) : EReal) * ((qR (wv k) S : ℝ) : EReal) := fun k => by
    rw [a_term _ _ hXS, q_term _ hS]
  have hB : ∀ k, RE (Ideal.div (Scalar.select (M k) 0 (xv k : EReal)) (XS : EReal))
              * Scalar.select (M k) 0 (RE (Ideal.div (wv k : EReal) (S : EReal)))
          = ((bR (M k) (xv k) XS : ℝ) : EReal) * ((cR (M k) (qR (wv k) S) : ℝ) : EReal) := fun k => by
    rw [b_term _ _ hXS, q_term _ hS, c_term]
  have hD : ∀ k, Scalar.select (M k) (xv k : EReal) 0
            * ((RE (Ideal.div (wv k : EReal) (S : EReal)) * (S : EReal)) * FloatOps.uitofp (F := Ideal) .f32 (M k))
          = ((dR (M k) (xv k) : ℝ) : EReal) * ((((qR (wv k) S : ℝ) : EReal) * (S : EReal)) * ((mR (M k) : ℝ) : EReal)) :=
    fun k => by rw [d_term, q_term _ hS, m_term]
  rw [Finset.sum_congr rfl fun k _ => hL k, Finset.sum_congr rfl fun k _ => hB k, Finset.sum_congr rfl fun k _ => hD k]
  exact Cert.Algebra.merge_coe (fun k => aR (M k) (xv k) XS) (fun k => bR (M k) (xv k) XS)
    (fun k => cR (M k) (qR (wv k) S)) (fun k => dR (M k) (xv k)) (fun k => qR (wv k) S) (fun k => mR (M k)) XS S
    (fun k => real_law (M k) (xv k) (qR (wv k) S) hXS S)

/-! ## The entries of the two programs -/

section
open Cert.KernelIdeal Cert.KernelIdeal.Facts₀

variable (x : Arr (F := Ideal) S4x2048x4096 .f32) (s : Arr (F := Ideal) S1 .f32) (w : Arr (F := Ideal) S11008x4096 .f32)

/-- The activations read as a matrix are the same real numbers. -/
theorem x2_real (hx : ∀ i, IsReal (x i)) (j : S8192x4096.Idx) : IsReal (x2 x j) := by
  unfold Cert.Stages.x2 shapeCast
  exact hx _

/-- Every entry of the inlier part is a real number: zero, or an activation. -/
theorem xin_real (hx : ∀ i, IsReal (x i)) (i : S8192x4096.Idx) : IsReal (xin x s i) := by
  obtain ⟨a, b, rfl⟩ : ∃ (a : Fin 8192) (b : Fin 4096), i = ix2 a b := ⟨i 0, i 1, eq_ix2 i⟩
  rw [xin_apply]
  rcases BitVec.eq_zero_or_eq_one (mask x s (ix1 b)) with h | h
  · rw [h, select_zero]; exact x2_real x hx _
  · rw [h, select_one]; exact IsReal.zero

/-- The row scale of the inlier part is a positive real number. -/
theorem xs_pos_real (hx : ∀ i, IsReal (x i)) (r : Fin 8192) : ∃ a : ℝ, 0 < a ∧ xs x s (ix1 r) = (a : EReal) :=
  Cert.Scales.rowScale_pos_real (xin x s) (xin_real x s hx) r

/-- Entry `(r, n)` of the kernel's scaled product of its two operands is entry `(r, n)` of the reference's matrix. -/
theorem entry (hx : ∀ i, IsReal (x i)) (hw : ∀ i, IsReal (w i)) (r : Fin 8192) (n : Fin 11008) :
    Cert.Gemm.gemmAt (aMat x s) (bMat w) (rsCol x s) (csRow w) r (padRow n) = yref x w s (ix2 r n) := by
  obtain ⟨XS, hXS0, hXS⟩ := xs_pos_real x s hx r
  obtain ⟨S, hS0, hSC⟩ := Cert.Scales.sc_nonneg_real w hw n
  choose xv hxv using fun k : Fin 4096 => x2_real x hx (ix2 r k)
  choose wv hwv using fun k : Fin 4096 => hw (ix2 n k)
  rw [Cert.StageReadRef.yref_apply]
  unfold Cert.Gemm.gemmAt
  rw [rsCol_apply, csRow_apply]
  simp only [aMat_apply, bMat_apply, qx_apply, xin_apply, xout_apply, Cert.StageReadRef.qwin_apply,
    Cert.StageReadRef.qw_apply, Cert.StageReadRef.wdq_apply, hxv, hwv, hXS]
  rcases eq_or_ne S 0 with h0 | h0
  · have hSC0 : sc w (ix1 n) = 0 := by rw [hSC, h0, EReal.coe_zero]
    exact core_zero _ _ _ _ _ _ _ _ hSC0
  · simp only [hSC]
    exact core_real (fun k => mask x s (ix1 k)) xv wv hXS0.ne' h0

end

end Cert.Bridge

end
-- ==== Proof.Final.lean ====
/-
  The two results are one array.

  The kernel's program ends by cutting the first 11008 columns out of its 8192 × 11264 product and reading the rows
  as 4 × 2048; the reference ends by reading its 8192 × 11008 matrix the same way.  Entry `(b, t, n)` of either is
  entry `(2048·b + t, n)` of the matrix, and the matrices agree entry by entry when every input entry is a real
  number.
-/
import proofs.«119141_j49220325212290_2_alg».proof.Proof.Bridge

noncomputable section

namespace Cert.Final

open Idealize.ShloMosaic Idealize.ShloMosaic.ValueIdx Cert.Stages Cert.StageRead

variable (x : Arr (F := Ideal) Cert.KernelIdeal.S4x2048x4096 .f32) (s : Arr (F := Ideal) Cert.KernelIdeal.S1 .f32)
  (w : Arr (F := Ideal) Cert.KernelIdeal.S11008x4096 .f32)

/-- Row `2048·b + t` of the 8192. -/
abbrev row (b : Fin 4) (t : Fin 2048) : Fin 8192 := ⟨b.val * 2048 + t.val, by have := b.isLt; have := t.isLt; omega⟩

/-- The kernel's result at `(b, t, n)` is the product at `(2048·b + t, n)`. -/
theorem kernel_apply (G : Arr (F := Ideal) Cert.KernelIdeal.S8192x11264 .f32) (b : Fin 4) (t : Fin 2048) (n : Fin 11008) :
    shapeCast Cert.KernelIdeal.S4x2048x11008
        (extractStridedSlice Cert.KernelIdeal.S8192x11008 ![0, 0] G Cert.KernelIdeal.Facts₀.slices_S8192x11264_S8192x11008_0_0)
        Cert.KernelIdeal.Facts₀.shapeCasts_S8192x11008_S4x2048x11008 (ix3 b t n)
      = G (ix2 (row b t) (padRow n)) := by
  rw [shapeCast_apply _ _ (ix3 b t n) (ix2 (row b t) n) (by
    rw [Shape.rowMajor_val_three, Shape.rowMajor_val_two]
    show (b.val * 2048 + t.val) * 11008 + n.val = (b.val * 2048 + t.val) * 11008 + n.val
    rfl)]
  exact extractStridedSlice_apply _ G _ (ix2 (row b t) n) (ix2 (row b t) (padRow n))
    (fun a => match a with
      | ⟨0, _⟩ => by show b.val * 2048 + t.val = 0 + (b.val * 2048 + t.val); omega
      | ⟨1, _⟩ => by show n.val = 0 + n.val; omega)

/-- The reference's result at `(b, t, n)` is its matrix at `(2048·b + t, n)`. -/
theorem ref_apply (b : Fin 4) (t : Fin 2048) (n : Fin 11008) :
    refResult x w s (ix3 b t n) = yref x w s (ix2 (row b t) n) := by
  unfold refResult
  exact shapeCast_apply _ _ (ix3 b t n) (ix2 (row b t) n) (by
    rw [Shape.rowMajor_val_three, Shape.rowMajor_val_two]
    show (b.val * 2048 + t.val) * 11008 + n.val = (b.val * 2048 + t.val) * 11008 + n.val
    rfl)

/-- The kernel's result array is the reference's. -/
theorem result_eq (hx : ∀ i, Cert.Spec.IsReal (x i)) (hw : ∀ i, Cert.Spec.IsReal (w i)) :
    shapeCast Cert.KernelIdeal.S4x2048x11008
        (extractStridedSlice Cert.KernelIdeal.S8192x11008 ![0, 0]
          (Cert.Gemm.gemm (aMat x s) (bMat w) (rsCol x s) (csRow w))
          Cert.KernelIdeal.Facts₀.slices_S8192x11264_S8192x11008_0_0)
        Cert.KernelIdeal.Facts₀.shapeCasts_S8192x11008_S4x2048x11008
      = refResult x w s := by
  funext i
  obtain ⟨b, t, n, rfl⟩ : ∃ (b : Fin 4) (t : Fin 2048) (n : Fin 11008), i = ix3 b t n := ⟨i 0, i 1, i 2, eq_ix3 i⟩
  rw [kernel_apply, ref_apply, Cert.Gemm.gemm_ix2]
  exact Cert.Bridge.entry x s w hx hw (row b t) n

end Cert.Final

end
-- ==== Proof.Finite.lean ====
/-
  Under the precondition every input entry is a real number.

  The precondition says of each of the three input arrays that all of its entries have an absolute value below +∞,
  and joins the three statements by "and".  An extended real whose absolute value — the larger of it and its
  opposite — is below +∞ is neither infinity, so it is a real number.
-/
import proofs.«119141_j49220325212290_2_alg».proof.Defs
import proofs.«119141_j49220325212290_2_alg».proof.Proof.Gen.Pre_finite_inputs
import proofs.«119141_j49220325212290_2_alg».proof.Proof.LibEReal
import Idealize.ShloMosaic.Lib.ReduceAll
import Idealize.ShloMosaic.Lib.ValueIdx

noncomputable section

namespace Cert.Finite

open Idealize.ShloMosaic Idealize.SL.Sem Cert.Spec

/-- The pattern of +∞ denotes +∞. -/
theorem ofBits_inf : Ideal.ofBits .f32 0x7F800000#32 = ⊤ := by
  simp [Ideal.ofBits, Ideal.ieee]

/-- An extended real whose absolute value compares below +∞ is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | top => exact absurd hlt (by simp)
  | coe a => exact IsReal.coe a

/-- The one index of a rank-zero array is the only one. -/
instance : Subsingleton (⟨0, ![]⟩ : Shape).Idx := ⟨fun a b => funext fun d => d.elim0⟩

/-- An array all of whose entries have an absolute value that compares below +∞ — the conjunction, taken over every
    axis, being one — has only real entries. -/
theorem all_real {s : Shape} {axes : List (Fin s.rank)} (x : FVec Ideal s .f32)
    (hb : (⟨0, ![]⟩ : Shape).BroadcastsInDim s (![] : Fin 0 → Fin s.rank)) (h : s.ReducesTo axes (⟨0, ![]⟩ : Shape))
    (hu : 0 < (⟨0, ![]⟩ : Shape).numel)
    (e : Host.reduce IntOp.andi
        (cmpf .olt (Host.absf (F := Ideal) x)
          (broadcastInDim s ![] hb (constant (F := Ideal) (⟨0, ![]⟩ : Shape) .f32 0x7F800000#32)))
        (constantI (⟨0, ![]⟩ : Shape) 1 1#1) h hu ValueIdx.ix0 = 1#1) (i : s.Idx) : IsReal (x i) :=
  isReal_of_abs_lt_inf (x i) (Host.reduce_andi_all _ _ h hu ValueIdx.ix0 e i)

/-- Under the precondition, on every device, every entry of each of the three input arrays is a real number. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨all_real _ _ _ _ h0', all_real _ _ _ _ h1, all_real _ _ _ _ h2⟩

end Cert.Finite

end
-- ==== Proof.lean ====
/-
  The certificate: an int8-quantized matrix product with an outlier correction, merged into one product.

  The reference splits the 4096 columns of the activations into outlier columns (some entry exceeds the threshold)
  and inlier columns, quantizes the inlier part row by row and the weights row by row, and adds two products: the
  quantized one, rescaled by the row scale and the weight scale, and the outlier one against the dequantized weights.
  The kernel takes ONE product, of (quantized inliers + outliers / row scale) with the quantized weights, accumulated
  over four blocks of 1024 columns, and rescales it by the row scale and the weight scale.  Over the extended reals
  the two agree entry by entry when every input entry is a real number: the row scale is then a positive real, so
  the outlier part divided by it and multiplied back is unchanged, and the sum over columns splits into its inlier
  and outlier parts by distributivity; where a weight scale is zero both sides vanish.

  The three frames are the generated ones (the reference's from its run); the idealization rewrote nothing.
-/
import proofs.«119141_j49220325212290_2_alg».proof.Defs
import proofs.«119141_j49220325212290_2_alg».proof.Proof.Gen.Kernel
import proofs.«119141_j49220325212290_2_alg».proof.Proof.Gen.Kernel.Frame
import proofs.«119141_j49220325212290_2_alg».proof.Proof.Gen.KernelIdeal
import proofs.«119141_j49220325212290_2_alg».proof.Proof.Gen.KernelIdeal.Frame
import proofs.«119141_j49220325212290_2_alg».proof.Proof.Gen.ReferenceIdeal
import proofs.«119141_j49220325212290_2_alg».proof.Proof.Gen.Pre_finite_inputs
import proofs.«119141_j49220325212290_2_alg».proof.Proof.KerRun
import proofs.«119141_j49220325212290_2_alg».proof.Proof.KerPrefix
import proofs.«119141_j49220325212290_2_alg».proof.Proof.RefRun
import proofs.«119141_j49220325212290_2_alg».proof.Proof.Final
import proofs.«119141_j49220325212290_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- Both idealized programs end with the same result array. -/
theorem algebraic : Cert.algebraic_KernelIdeal_ReferenceIdeal := by
  intro m ρ m' ρ' hpre hagree
  refine ⟨fun c => Cert.Stages.refResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r h c => ⟨(h c).1.trans ?_, (h c).2⟩)
      (Cert.KerRun.run m ρ)
    rw [Cert.KerPrefix.V_a, Cert.KerPrefix.V_b, Cert.KerPrefix.V_rs, Cert.KerPrefix.V_cs]
    exact Cert.Final.result_eq _ _ _ (Cert.Finite.of_pre m hpre c).1 (Cert.Finite.of_pre m hpre c).2.1
  · refine (θ_run (Cert.ReferenceIdeal.defs (F := Ideal)) _ _).mono (fun r h c => ⟨(h c).1.trans ?_, (h c).2⟩)
      (Cert.RefRun.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
